-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v70)) (v2 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v70) = v1 c
          ∧ r.2.mem ((c.tc : Thread Cert.KernelIdeal.nD Cert.KernelIdeal.τ).loc Cert.KernelIdeal.main_v70) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S256x128 : Shape := ⟨2, ![256, 128]⟩
abbrev S128x128 : Shape := ⟨2, ![128, 128]⟩
abbrev S128x5 : Shape := ⟨2, ![128, 5]⟩
abbrev S200000x128 : Shape := ⟨2, ![200000, 128]⟩
abbrev S200000 : Shape := ⟨1, ![200000]⟩
abbrev S200000x10 : Shape := ⟨2, ![200000, 10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x5 : S_.BroadcastsInDim S128x5 (![] : Fin 0 → Fin S128x5.rank)
  reducesTo_S128x5_S_d0_1 : S128x5.ReducesTo [0, 1] S_
  bcast_S_S200000x128 : S_.BroadcastsInDim S200000x128 (![] : Fin 0 → Fin S200000x128.rank)
  reducesTo_S200000x128_S_d0_1 : S200000x128.ReducesTo [0, 1] S_

variable [Facts]

def fn_part2 {F : FTy → Type} [FloatOps F] (main_arg7 : FVec F S128x128 .f32) (main_arg8 : FVec F S128x5 .f32) (main_arg9 : FVec F S200000x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x5 .f32 := Host.absf main_arg8
  let main_cst_14 : FVec F S_ .f32 := constant S_ .f32 0x7F800000#32
  let main_v40 : FVec F S128x5 .f32 := broadcastInDim S128x5 ![] bcast_S_S128x5 main_cst_14
  let main_v41 : IVec S128x5 1 := cmpf .olt main_v39 main_v40
  let main_c_15 : IVec S_ 1 := constantI S_ 1 1#1
  let main_v42 : IVec S_ 1 := (fun x v => Host.reduce IntOp.andi x v reducesTo_S128x5_S_d0_1 h_S_) main_v41 main_c_15
  let main_v43 : IVec S_ 1 := andi main_v38 main_v42
  let main_v44 : FVec F S200000x128 .f32 := Host.absf main_arg9
  let main_cst_16 : FVec F S_ .f32 := constant S_ .f32 0x7F800000#32
  let main_v45 : FVec F S200000x128 .f32 := broadcastInDim S200000x128 ![] bcast_S_S200000x128 main_cst_16
  let main_v46 : IVec S200000x128 1 := cmpf .olt main_v44 main_v45
  let main_c_17 : IVec S_ 1 := constantI S_ 1 1#1
  let main_v47 : IVec S_ 1 := (fun x v => Host.reduce IntOp.andi x v reducesTo_S200000x128_S_d0_1 h_S_) main_v46 main_c_17
  let main_v48 : IVec S_ 1 := andi main_v43 main_v47
  main_v48

def fn_part1 {F : FTy → Type} [FloatOps F] (main_arg4 : FVec F S256x128 .f32) (main_arg5 : FVec F S128x128 .f32) (main_arg6 : FVec F S256x128 .f32) (main_arg7 : FVec F S128x128 .f32) (main_arg8 : FVec F S128x5 .f32) (main_arg9 : FVec F S200000x128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S50000x128 .f32) (main_arg2 : FVec F S100000x128 .f32) (main_arg3 : FVec F S50000x128 .f32) (main_arg4 : FVec F S256x128 .f32) (main_arg5 : FVec F S128x128 .f32) (main_arg6 : FVec F S256x128 .f32) (main_arg7 : FVec F S128x128 .f32) (main_arg8 : FVec F S128x5 .f32) (main_arg9 : FVec F S200000x128 .f32) (main_arg10 : IVec S200000 32) (main_arg11 : IVec S200000 32) (main_arg12 : IVec S200000x10 32) (main_arg13 : IVec S200000x10 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S50000x128 : Shape := ⟨2, ![50000, 128]⟩
abbrev S256x128 : Shape := ⟨2, ![256, 128]⟩
abbrev S128x128 : Shape := ⟨2, ![128, 128]⟩
abbrev S128x5 : Shape := ⟨2, ![128, 5]⟩
abbrev S200000x128 : Shape := ⟨2, ![200000, 128]⟩
abbrev S200000 : Shape := ⟨1, ![200000]⟩
abbrev S200000x10 : Shape := ⟨2, ![200000, 10]⟩
abbrev S_ : Shape := ⟨0, ![]⟩
abbrev S200000x1 : Shape := ⟨2, ![200000, 1]⟩
abbrev S200000x256 : Shape := ⟨2, ![200000, 256]⟩
abbrev S200000x10x1 : Shape := ⟨3, ![200000, 10, 1]⟩
abbrev S200000x10x128 : Shape := ⟨3, ![200000, 10, 128]⟩
abbrev S200000x5 : Shape := ⟨2, ![200000, 5]⟩
abbrev S100x8x128 : Shape := ⟨3, ![100, 8, 128]⟩
abbrev S2000x256 : Shape := ⟨2, ![2000, 256]⟩
abbrev S2000x128 : Shape := ⟨2, ![2000, 128]⟩
abbrev S2000x5 : Shape := ⟨2, ![2000, 5]⟩
abbrev S1x8x128 : Shape := ⟨3, ![1, 8, 128]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S100x1x1 : Shape := ⟨3, ![100, 1, 1]⟩
abbrev S100 : Shape := ⟨1, ![100]⟩

abbrev nBuf : Space → Nat
  | .hbm => 108
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S100000x128, .f32⟩
  | .hbm, ⟨3, _⟩ => ⟨S50000x128, .f32⟩
  | .hbm, ⟨4, _⟩ => ⟨S256x128, .f32⟩
  | .hbm, ⟨5, _⟩ => ⟨S128x128, .f32⟩
  | .hbm, ⟨6, _⟩ => ⟨S256x128, .f32⟩
  | .hbm, ⟨7, _⟩ => ⟨S128x128, .f32⟩
  | .hbm, ⟨8, _⟩ => ⟨S128x5, .f32⟩
  | .hbm, ⟨9, _⟩ => ⟨S200000x128, .f32⟩
  | .hbm, ⟨10, _⟩ => ⟨S200000, .i32⟩
  | .hbm, ⟨11, _⟩ => ⟨S200000, .i32⟩
  | .hbm, ⟨12, _⟩ => ⟨S200000x10, .i32⟩
  | .hbm, ⟨13, _⟩ => ⟨S200000x10, .i32⟩
  | .hbm, ⟨14, _⟩ => ⟨S_, .i32⟩
  | .hbm, ⟨15, _⟩ => ⟨S200000, .i32⟩
  | .hbm, ⟨16, _⟩ => ⟨S200000, .i1⟩
  | .hbm, ⟨17, _⟩ => ⟨S_, .i32⟩
  | .hbm, ⟨18, _⟩ => ⟨S200000, .i32⟩
  | .hbm, ⟨19, _⟩ => ⟨S200000, .i32⟩
  | .hbm, ⟨20, _⟩ => ⟨S200000, .i32⟩
  | .hbm, ⟨21, _⟩ => ⟨S200000x1, .i32⟩
  | .hbm, ⟨22, _⟩ => ⟨S200000x128, .f32⟩
  | .hbm, ⟨23, _⟩ => ⟨S_, .i32⟩
  | .hbm, ⟨24, _⟩ => ⟨S200000, .i32⟩
  | .hbm, ⟨25, _⟩ => ⟨S200000, .i1⟩
  | .hbm, ⟨26, _⟩ => ⟨S_, .i32⟩
  | .hbm, ⟨27, _⟩ => ⟨S200000, .i32⟩
  | .hbm, ⟨28, _⟩ => ⟨S200000, .i32⟩
  | .hbm, ⟨29, _⟩ => ⟨S200000, .i32⟩
  | .hbm, ⟨30, _⟩ => ⟨S200000x1, .i32⟩
  | .hbm, ⟨31, _⟩ => ⟨S200000x128, .f32⟩
  | .hbm, ⟨32, _⟩ => ⟨S200000x256, .f32⟩
  | .hbm, ⟨33, _⟩ => ⟨S200000x256, .bf16⟩
  | .hbm, ⟨34, _⟩ => ⟨S_, .i32⟩
  | .hbm, ⟨35, _⟩ => ⟨S200000, .i32⟩
  | .hbm, ⟨36, _⟩ => ⟨S200000, .i1⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000, .i32⟩
  | .hbm, ⟨41, _⟩ => ⟨S200000x1, .i32⟩
  | .hbm, ⟨42, _⟩ => ⟨S200000x128, .f32⟩
  | .hbm, ⟨43, _⟩ => ⟨S_, .i32⟩
  | .hbm, ⟨44, _⟩ => ⟨S200000, .i32⟩
  | .hbm, ⟨45, _⟩ => ⟨S200000, .i1⟩
  | .hbm, ⟨46, _⟩ => ⟨S_, .i32⟩
  | .hbm, ⟨47, _⟩ => ⟨S200000, .i32⟩
  | .hbm, ⟨48, _⟩ => ⟨S200000, .i32⟩
  | .hbm, ⟨49, _⟩ => ⟨S200000, .i32⟩
  | .hbm, ⟨50, _⟩ => ⟨S200000x1, .i32⟩
  | .hbm, ⟨51, _⟩ => ⟨S200000x128, .f32⟩
  | .hbm, ⟨52, _⟩ => ⟨S200000x256, .f32⟩
  | .hbm, ⟨53, _⟩ => ⟨S200000x256, .bf16⟩
  | .hbm, ⟨54, _⟩ => ⟨S_, .i32⟩
  | .hbm, ⟨55, _⟩ => ⟨S200000x10, .i32⟩
  | .hbm, ⟨56, _⟩ => ⟨S200000x10, .i1⟩
  | .hbm, ⟨57, _⟩ => ⟨S200000x10, .f32⟩
  | .hbm, ⟨58, _⟩ => ⟨S_, .f32⟩
  | .hbm, ⟨59, _⟩ => ⟨S200000, .f32⟩
  | .hbm, ⟨60, _⟩ => ⟨S200000x1, .f32⟩
  | .hbm, ⟨61, _⟩ => ⟨S_, .f32⟩
  | .hbm, ⟨62, _⟩ => ⟨S200000x1, .f32⟩
  | .hbm, ⟨63, _⟩ => ⟨S200000x1, .f32⟩
  | .hbm, ⟨64, _⟩ => ⟨S_, .i32⟩
  | .hbm, ⟨65, _⟩ => ⟨S200000x10, .i32⟩
  | .hbm, ⟨66, _⟩ => ⟨S200000x10, .i1⟩
  | .hbm, ⟨67, _⟩ => ⟨S200000x10, .f32⟩
  | .hbm, ⟨68, _⟩ => ⟨S_, .f32⟩
  | .hbm, ⟨69, _⟩ => ⟨S200000, .f32⟩
  | .hbm, ⟨70, _⟩ => ⟨S200000x1, .f32⟩
  | .hbm, ⟨71, _⟩ => ⟨S_, .f32⟩
  | .hbm, ⟨72, _⟩ => ⟨S200000x1, .f32⟩
  | .hbm, ⟨73, _⟩ => ⟨S200000x1, .f32⟩
  | .hbm, ⟨74, _⟩ => ⟨S_, .i32⟩
  | .hbm, ⟨75, _⟩ => ⟨S200000x10, .i32⟩
  | .hbm, ⟨76, _⟩ => ⟨S200000x10, .i1⟩
  | .hbm, ⟨77, _⟩ => ⟨S_, .i32⟩
  | .hbm, ⟨78, _⟩ => ⟨S200000x10, .i32⟩
  | .hbm, ⟨79, _⟩ => ⟨S200000x10, .i32⟩
  | .hbm, ⟨80, _⟩ => ⟨S200000x10, .i32⟩
  | .hbm, ⟨81, _⟩ => ⟨S200000x10x1, .i32⟩
  | .hbm, ⟨82, _⟩ => ⟨S200000x10x128, .f32⟩
  | .hbm, ⟨83, _⟩ => ⟨S_, .f32⟩
  | .hbm, ⟨84, _⟩ => ⟨S200000x128, .f32⟩
  | .hbm, ⟨85, _⟩ => ⟨S200000x128, .f32⟩
  | .hbm, ⟨86, _⟩ => ⟨S200000x128, .f32⟩
  | .hbm, ⟨87, _⟩ => ⟨S_, .i32⟩
  | .hbm, ⟨88, _⟩ => ⟨S200000x10, .i32⟩
  | .hbm, ⟨89, _⟩ => ⟨S200000x10, .i1⟩
  | .hbm, ⟨90, _⟩ => ⟨S_, .i32⟩
  | .hbm, ⟨91, _⟩ => ⟨S200000x10, .i32⟩
  | .hbm, ⟨92, _⟩ => ⟨S200000x10, .i32⟩
  | .hbm, ⟨93, _⟩ => ⟨S200000x10, .i32⟩
  | .hbm, ⟨94, _⟩ => ⟨S200000x10x1, .i32⟩
  | .hbm, ⟨95, _⟩ => ⟨S200000x10x128, .f32⟩
  | .hbm, ⟨96, _⟩ => ⟨S_, .f32⟩
  | .hbm, ⟨97, _⟩ => ⟨S200000x128, .f32⟩
  | .hbm, ⟨98, _⟩ => ⟨S200000x128, .f32⟩
  | .hbm, ⟨99, _⟩ => ⟨S200000x128, .f32⟩
  | .hbm, ⟨100, _⟩ => ⟨S200000x5, .f32⟩
  | .hbm, ⟨101, _⟩ => ⟨S100x8x128, .f32⟩
  | .hbm, ⟨102, _⟩ => ⟨S100x1x1, .f32⟩
  | .hbm, ⟨103, _⟩ => ⟨S100, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .local _ .vmem, ⟨0, _⟩ => ⟨S2000x256, .bf16⟩
  | .local _ .vmem, ⟨1, _⟩ => ⟨S2000x256, .bf16⟩
  | .local _ .vmem, ⟨2, _⟩ => ⟨S2000x256, .bf16⟩
  | .local _ .vmem, ⟨3, _⟩ => ⟨S2000x256, .bf16⟩
  | .local _ .vmem, ⟨4, _⟩ => ⟨S256x128, .f32⟩
  | .local _ .vmem, ⟨5, _⟩ => ⟨S128x128, .f32⟩
  | .local _ .vmem, ⟨6, _⟩ => ⟨S256x128, .f32⟩
  | .local _ .vmem, ⟨7, _⟩ => ⟨S128x128, .f32⟩
  | .local _ .vmem, ⟨8, _⟩ => ⟨S128x5, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x5, .f32⟩
  | .local _ .vmem, ⟨14, _⟩ => ⟨S2000x5, .f32⟩
  | .local _ .vmem, ⟨15, _⟩ => ⟨S1x8x128, .f32⟩
  | .local _ .vmem, ⟨16, _⟩ => ⟨S1x8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_c_13 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_15 : Ref sig .tc := ⟨.hbm, 87, rfl⟩
abbrev main_v56 : Ref sig .tc := ⟨.hbm, 88, rfl⟩
abbrev main_v57 : Ref sig .tc := ⟨.hbm, 89, rfl⟩
abbrev main_c_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_17 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66_0 : Ref sig .tc := ⟨.hbm, 100, rfl⟩
abbrev main_v66_1 : Ref sig .tc := ⟨.hbm, 101, rfl⟩
abbrev main_v67 : Ref sig .tc := ⟨.hbm, 102, rfl⟩
abbrev main_v68 : Ref sig .tc := ⟨.hbm, 103, rfl⟩
abbrev main_cst_18 : Ref sig .tc := ⟨.hbm, 104, rfl⟩
abbrev main_v69 : Ref sig .tc := ⟨.hbm, 105, rfl⟩
abbrev main_cst_19 : Ref sig .tc := ⟨.hbm, 106, rfl⟩
abbrev main_v70 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x5 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bitsLt_bf16_f32 : FTy.bits .bf16 < FTy.bits .f32
  bcast_S_S200000x10 : S_.BroadcastsInDim S200000x10 (![] : Fin 0 → Fin S200000x10.rank)
  reducesTo_S200000x10_S200000_d1 : S200000x10.ReducesTo [1] S200000
  h_S_ : 0 < S_.numel
  bcast_S_S200000x1 : S_.BroadcastsInDim S200000x1 (![] : Fin 0 → Fin S200000x1.rank)
  bcast_S200000x10_S200000x10x1_0_1 : S200000x10.BroadcastsInDim S200000x10x1 (![0, 1] : Fin 2 → Fin S200000x10x1.rank)
  reducesTo_S200000x10x128_S200000x128_d1 : S200000x10x128.ReducesTo [1] S200000x128
  bcast_S200000x1_S200000x128_0_1 : S200000x1.BroadcastsInDim S200000x128 (![0, 1] : Fin 2 → Fin S200000x128.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  inb_S128x5_S128x5_0_0 : ∀ a, (![0, 0] : Fin 2 → Nat) a + S128x5.size a ≤ S128x5.size a
  h_S128x5 : 0 < S128x5.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  inb_S2000x5_S2000x5_0_0 : ∀ a, (![0, 0] : Fin 2 → Nat) a + S2000x5.size a ≤ S2000x5.size a
  h_S2000x5 : 0 < S2000x5.numel
  reduces_S2000x1_S1 : S2000x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S100x8x128_S100x1x1_0_0_0 : S100x8x128.Slices ![0, 0, 0] S100x1x1
  shapeCasts_S100x1x1_S100 : S100x1x1.ShapeCasts S100
  reducesTo_S100_S_d0 : S100.ReducesTo [0] S_
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]
  gather_S200000x128_S200000x10x1_S200000x10x128_2_0_n_n_0_2_1128_wf : GatherDims.WF S200000x128 S200000x10x1 S200000x10x128 [2] [0] [] [0] [] 2 ![1, 128]
  dot_S2000x256_S256x128_S2000x128_1_0_0_1_n_n_wf : DotDims.WF S2000x256 S256x128 S2000x128 [1] [0] [0] [1] [] []
  dot_S2000x128_S128x128_S2000x128_1_0_0_1_n_n_wf : DotDims.WF S2000x128 S128x128 S2000x128 [1] [0] [0] [1] [] []
  dot_S2000x128_S128x5_S2000x5_1_0_0_1_n_n_wf : DotDims.WF S2000x128 S128x5 S2000x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .bf16 = 32 ∨ (Rect.block (s := S200000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .bf16 = 32 ∨ (Rect.block (s := S200000x256) S2000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x5.size a ≤ S128x5.size a
  hwx0_6 : ∀ i : grid0.Coords, EltTy.bits .f32 = 32 ∨ (Rect.block (s := S128x5) S128x5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S200000x128.size a
  hwx0_7 : ∀ i : grid0.Coords, EltTy.bits .f32 = 32 ∨ (Rect.block (s := S200000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S200000x128.size a
  hwx0_8 : ∀ i : grid0.Coords, EltTy.bits .f32 = 32 ∨ (Rect.block (s := S200000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x5.size a ≤ S200000x5.size a
  hwx0_9 : ∀ i : grid0.Coords, EltTy.bits .f32 = 32 ∨ (Rect.block (s := S200000x5) S2000x5.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x8x128.size a ≤ S100x8x128.size a
  hwx0_10 : ∀ i : grid0.Coords, EltTy.bits .f32 = 32 ∨ (Rect.block (s := S100x8x128) S1x8x128.size (cc0_transform_10 i) (hinb0_10 i)).WholeWords (EltTy.packing .f32)

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def gather_S200000x128_S200000x10x1_S200000x10x128_2_0_n_n_0_2_1128 : GatherDims S200000x128 S200000x10x1 S200000x10x128 where
  offsetDims := [2]
  collapsedSliceDims := [0]
  operandBatchingDims := []
  startIndicesBatchingDims := []
  startIndexMap := [0]
  indexVectorDim := 2
  sliceSizes := ![1, 128]
  wf := gather_S200000x128_S200000x10x1_S200000x10x128_2_0_n_n_0_2_1128_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x5_S2000x5_1_0_0_1_n_n : DotDims S2000x128 S128x5 S2000x5 where
  lhsContracting := [1]
  rhsContracting := [0]
  lhsNonContracting := [0]
  rhsNonContracting := [1]
  lhsBatch := []
  rhsBatch := []
  wf := dot_S2000x128_S128x5_S2000x5_1_0_0_1_n_n_wf

abbrev win0_0 : Pipeline.Window sig grid0 :=
  Pipeline.Window.ofSpec (Memref.whole main_v15) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v55) S2000x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v65) S2000x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v66_0) S2000x5.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v66_1) S1x8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S256x128 : Shape := ⟨2, ![256, 128]⟩
abbrev S128x128 : Shape := ⟨2, ![128, 128]⟩
abbrev S128x5 : Shape := ⟨2, ![128, 5]⟩
abbrev S200000x128 : Shape := ⟨2, ![200000, 128]⟩
abbrev S200000 : Shape := ⟨1, ![200000]⟩
abbrev S200000x10 : Shape := ⟨2, ![200000, 10]⟩
abbrev S_ : Shape := ⟨0, ![]⟩
abbrev S200000x1 : Shape := ⟨2, ![200000, 1]⟩
abbrev S200000x256 : Shape := ⟨2, ![200000, 256]⟩
abbrev S200000x5 : Shape := ⟨2, ![200000, 5]⟩
abbrev S200000x10x1 : Shape := ⟨3, ![200000, 10, 1]⟩
abbrev S200000x10x128 : Shape := ⟨3, ![200000, 10, 128]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S50000x128, .f32⟩
  | 2 => ⟨S100000x128, .f32⟩
  | 3 => ⟨S50000x128, .f32⟩
  | 4 => ⟨S256x128, .f32⟩
  | 5 => ⟨S128x128, .f32⟩
  | 6 => ⟨S256x128, .f32⟩
  | 7 => ⟨S128x128, .f32⟩
  | 8 => ⟨S128x5, .f32⟩
  | 9 => ⟨S200000x128, .f32⟩
  | 10 => ⟨S200000, .i32⟩
  | 11 => ⟨S200000, .i32⟩
  | 12 => ⟨S200000x10, .i32⟩
  | 13 => ⟨S200000x10, .i32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x128, .f32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .f32⟩
  | 32 => ⟨S200000x256, .f32⟩
  | 33 => ⟨S200000x128, .f32⟩
  | 34 => ⟨S_, .f32⟩
  | 35 => ⟨S200000x128, .f32⟩
  | 36 => ⟨S200000x128, .f32⟩
  | 37 => ⟨S200000x128, .f32⟩
  | 38 => ⟨S200000x5, .f32⟩
  | 39 => ⟨S_, .i32⟩
  | 40 => ⟨S200000, .i32⟩
  | 41 => ⟨S200000, .i1⟩
  | 42 => ⟨S_, .i32⟩
  | 43 => ⟨S200000, .i32⟩
  | 44 => ⟨S200000, .i32⟩
  | 45 => ⟨S200000, .i32⟩
  | 46 => ⟨S200000x1, .i32⟩
  | 47 => ⟨S200000x128, .f32⟩
  | 48 => ⟨S_, .i32⟩
  | 49 => ⟨S200000, .i32⟩
  | 50 => ⟨S200000, .i1⟩
  | 51 => ⟨S_, .i32⟩
  | 52 => ⟨S200000, .i32⟩
  | 53 => ⟨S200000, .i32⟩
  | 54 => ⟨S200000, .i32⟩
  | 55 => ⟨S200000x1, .i32⟩
  | 56 => ⟨S200000x128, .f32⟩
  | 57 => ⟨S200000x256, .f32⟩
  | 58 => ⟨S200000x128, .f32⟩
  | 59 => ⟨S_, .f32⟩
  | 60 => ⟨S200000x128, .f32⟩
  | 61 => ⟨S200000x128, .f32⟩
  | 62 => ⟨S200000x128, .f32⟩
  | 63 => ⟨S200000x128, .f32⟩
  | 64 => ⟨S_, .i32⟩
  | 65 => ⟨S200000x10, .i32⟩
  | 66 => ⟨S200000x10, .i1⟩
  | 67 => ⟨S200000x10, .f32⟩
  | 68 => ⟨S_, .f32⟩
  | 69 => ⟨S200000, .f32⟩
  | 70 => ⟨S200000x1, .f32⟩
  | 71 => ⟨S_, .f32⟩
  | 72 => ⟨S200000x1, .f32⟩
  | 73 => ⟨S200000x1, .f32⟩
  | 74 => ⟨S_, .i32⟩
  | 75 => ⟨S200000x10, .i32⟩
  | 76 => ⟨S200000x10, .i1⟩
  | 77 => ⟨S_, .i32⟩
  | 78 => ⟨S200000x10, .i32⟩
  | 79 => ⟨S200000x10, .i32⟩
  | 80 => ⟨S200000x10, .i32⟩
  | 81 => ⟨S200000x10x1, .i32⟩
  | 82 => ⟨S200000x10x128, .f32⟩
  | 83 => ⟨S_, .f32⟩
  | 84 => ⟨S200000x128, .f32⟩
  | 85 => ⟨S200000x128, .f32⟩
  | 86 => ⟨S200000x128, .f32⟩
  | 87 => ⟨S_, .i32⟩
  | 88 => ⟨S200000x10, .i32⟩
  | 89 => ⟨S200000x10, .i1⟩
  | 90 => ⟨S200000x10, .f32⟩
  | 91 => ⟨S_, .f32⟩
  | 92 => ⟨S200000, .f32⟩
  | 93 => ⟨S200000x1, .f32⟩
  | 94 => ⟨S_, .f32⟩
  | 95 => ⟨S200000x1, .f32⟩
  | 96 => ⟨S200000x1, .f32⟩
  | 97 => ⟨S_, .i32⟩
  | 98 => ⟨S200000x10, .i32⟩
  | 99 => ⟨S200000x10, .i1⟩
  | 100 => ⟨S_, .i32⟩
  | 101 => ⟨S200000x10, .i32⟩
  | 102 => ⟨S200000x10, .i32⟩
  | 103 => ⟨S200000x10, .i32⟩
  | 104 => ⟨S200000x10x1, .i32⟩
  | 105 => ⟨S200000x10x128, .f32⟩
  | 106 => ⟨S_, .f32⟩
  | 107 => ⟨S200000x128, .f32⟩
  | 108 => ⟨S200000x128, .f32⟩
  | 109 => ⟨S200000x128, .f32⟩
  | 110 => ⟨S200000x128, .f32⟩
  | 111 => ⟨S_, .f32⟩
  | 112 => ⟨S200000, .f32⟩
  | 113 => ⟨S200000x128, .f32⟩
  | 114 => ⟨S_, .f32⟩
  | 115 => ⟨S200000, .f32⟩
  | 116 => ⟨S200000, .f32⟩
  | 117 => ⟨S200000, .f32⟩
  | 118 => ⟨S_, .f32⟩
  | 119 => ⟨S200000, .f32⟩
  | 120 => ⟨S200000, .f32⟩
  | 121 => ⟨S200000, .f32⟩
  | 122 => ⟨S200000, .f32⟩
  | 123 => ⟨S200000, .i1⟩
  | 124 => ⟨S200000, .f32⟩
  | 125 => ⟨S200000, .f32⟩
  | 126 => ⟨S200000, .f32⟩
  | 127 => ⟨S200000, .f32⟩
  | _ => ⟨S100000x128, .f32⟩

abbrev hbmTy0_1 (i : Nat) : BufTy := match i % 128 with
  | 0 => ⟨S200000, .f32⟩
  | 1 => ⟨S200000, .f32⟩
  | 2 => ⟨S200000, .f32⟩
  | 3 => ⟨S200000, .f32⟩
  | 4 => ⟨S200000, .f32⟩
  | 5 => ⟨S200000, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call0_cst : Ref sig .tc := ⟨.hbm, 34, rfl⟩
abbrev main_call0_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_cst : Ref sig .tc := ⟨.hbm, 59, rfl⟩
abbrev main_call1_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_c_9 : Ref sig .tc := ⟨.hbm, 74, rfl⟩
abbrev main_v45 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_v59 : Ref sig .tc := ⟨.hbm, 93, rfl⟩
abbrev main_cst_14 : Ref sig .tc := ⟨.hbm, 94, rfl⟩
abbrev main_v60 : Ref sig .tc := ⟨.hbm, 95, rfl⟩
abbrev main_v61 : Ref sig .tc := ⟨.hbm, 96, rfl⟩
abbrev main_c_15 : Ref sig .tc := ⟨.hbm, 97, rfl⟩
abbrev main_v62 : Ref sig .tc := ⟨.hbm, 98, rfl⟩
abbrev main_v63 : Ref sig .tc := ⟨.hbm, 99, rfl⟩
abbrev main_c_16 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_17 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_18 : Ref sig .tc := ⟨.hbm, 111, rfl⟩
abbrev main_v73 : Ref sig .tc := ⟨.hbm, 112, rfl⟩
abbrev main_v74 : Ref sig .tc := ⟨.hbm, 113, rfl⟩
abbrev main_cst_19 : Ref sig .tc := ⟨.hbm, 114, rfl⟩
abbrev main_v75 : Ref sig .tc := ⟨.hbm, 115, rfl⟩
abbrev main_v76 : Ref sig .tc := ⟨.hbm, 116, rfl⟩
abbrev main_call2_v0 : Ref sig .tc := ⟨.hbm, 117, rfl⟩
abbrev main_call2_call0_cst : Ref sig .tc := ⟨.hbm, 118, rfl⟩
abbrev main_call2_call0_v0 : Ref sig .tc := ⟨.hbm, 119, rfl⟩
abbrev main_call2_call0_v1 : Ref sig .tc := ⟨.hbm, 120, rfl⟩
abbrev main_call2_call0_v2 : Ref sig .tc := ⟨.hbm, 121, rfl⟩
abbrev main_call2_call0_v3 : Ref sig .tc := ⟨.hbm, 122, rfl⟩
abbrev main_call2_call0_v4 : Ref sig .tc := ⟨.hbm, 123, rfl⟩
abbrev main_call2_call0_v5 : Ref sig .tc := ⟨.hbm, 124, rfl⟩
abbrev main_call2_call0_v6 : Ref sig .tc := ⟨.hbm, 125, rfl⟩
abbrev main_call2_call0_v7 : Ref sig .tc := ⟨.hbm, 126, rfl⟩
abbrev main_call2_call0_v8 : Ref sig .tc := ⟨.hbm, 127, rfl⟩
abbrev main_call2_call0_v9 : Ref sig .tc := ⟨.hbm, 128, rfl⟩
abbrev main_call2_call0_v10 : Ref sig .tc := ⟨.hbm, 129, rfl⟩
abbrev main_call2_call0_v11 : Ref sig .tc := ⟨.hbm, 130, rfl⟩
abbrev main_call2_v1 : Ref sig .tc := ⟨.hbm, 131, rfl⟩
abbrev main_v77 : Ref sig .tc := ⟨.hbm, 132, rfl⟩
abbrev main_v78 : Ref sig .tc := ⟨.hbm, 133, rfl⟩
abbrev main_cst_20 : Ref sig .tc := ⟨.hbm, 134, rfl⟩
abbrev main_v79 : Ref sig .tc := ⟨.hbm, 135, rfl⟩
abbrev main_cst_21 : Ref sig .tc := ⟨.hbm, 136, rfl⟩
abbrev main_v80 : Ref sig .tc := ⟨.hbm, 137, rfl⟩
abbrev main_cst_22 : Ref sig .tc := ⟨.hbm, 138, rfl⟩
abbrev main_v81 : Ref sig .tc := ⟨.hbm, 139, rfl⟩
abbrev main_cst_23 : Ref sig .tc := ⟨.hbm, 140, rfl⟩
abbrev main_v82 : Ref sig .tc := ⟨.hbm, 141, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S_S200000x128 : S_.BroadcastsInDim S200000x128 (![] : Fin 0 → Fin S200000x128.rank)
  bcast_S_S200000x10 : S_.BroadcastsInDim S200000x10 (![] : Fin 0 → Fin S200000x10.rank)
  reducesTo_S200000x10_S200000_d1 : S200000x10.ReducesTo [1] S200000
  h_S_ : 0 < S_.numel
  bcast_S_S200000x1 : S_.BroadcastsInDim S200000x1 (![] : Fin 0 → Fin S200000x1.rank)
  bcast_S200000x10_S200000x10x1_0_1 : S200000x10.BroadcastsInDim S200000x10x1 (![0, 1] : Fin 2 → Fin S200000x10x1.rank)
  reducesTo_S200000x10x128_S200000x128_d1 : S200000x10x128.ReducesTo [1] S200000x128
  bcast_S200000x1_S200000x128_0_1 : S200000x1.BroadcastsInDim S200000x128 (![0, 1] : Fin 2 → Fin S200000x128.rank)
  reducesTo_S200000x128_S200000_d1 : S200000x128.ReducesTo [1] S200000
  reducesTo_S200000_S_d0 : S200000.ReducesTo [0] S_
  gather_S100000x128_S200000x1_S200000x128_1_0_n_n_0_1_1128_wf : GatherDims.WF S100000x128 S200000x1 S200000x128 [1] [0] [] [0] [] 1 ![1, 128]
  gather_S50000x128_S200000x1_S200000x128_1_0_n_n_0_1_1128_wf : GatherDims.WF S50000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x128_S200000x128_1_0_0_1_n_n_wf : DotDims.WF S200000x128 S128x128 S200000x128 [1] [0] [0] [1] [] []
  dot_S200000x128_S128x5_S200000x5_1_0_0_1_n_n_wf : DotDims.WF S200000x128 S128x5 S200000x5 [1] [0] [0] [1] [] []
  gather_S200000x128_S200000x10x1_S200000x10x128_2_0_n_n_0_2_1128_wf : GatherDims.WF S200000x128 S200000x10x1 S200000x10x128 [2] [0] [] [0] [] 2 ![1, 128]

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x5_S200000x5_1_0_0_1_n_n : DotDims S200000x128 S128x5 S200000x5 where
  lhsContracting := [1]
  rhsContracting := [0]
  lhsNonContracting := [0]
  rhsNonContracting := [1]
  lhsBatch := []
  rhsBatch := []
  wf := dot_S200000x128_S128x5_S200000x5_1_0_0_1_n_n_wf
def gather_S200000x128_S200000x10x1_S200000x10x128_2_0_n_n_0_2_1128 : GatherDims S200000x128 S200000x10x1 S200000x10x128 where
  offsetDims := [2]
  collapsedSliceDims := [0]
  operandBatchingDims := []
  startIndicesBatchingDims := []
  startIndexMap := [0]
  indexVectorDim := 2
  sliceSizes := ![1, 128]
  wf := gather_S200000x128_S200000x10x1_S200000x10x128_2_0_n_n_0_2_1128_wf

class Facts : Prop extends Facts₀ where

variable [Facts]
-- ==== Proof.Spec.lean ====
/-
  The function both programs compute, stated once over plain extended reals and imported by both sides.

  An edge `e` has a row `xr e` of 256 rating features and a row `xt e` of 256 topic features (a user's 128 followed by
  an item's 128), and two pooled review vectors `p e`, `n e` of 128 entries. A two-layer perceptron sends a row `x` to
  `hidden x w1 w2 = relu (x · w1) · w2`. The rating prediction of an edge is `hidden (xr e) w1r w2r · wp`, five
  numbers. Its topic vector is `hidden (xt e) w1t w2t + hidden (xr e) w1r w2r`; its two scores are the inner
  products of the topic vector with the two review vectors; its loss is minus the logarithm of the logistic function
  at the difference of the scores, written `softplus (-(s₊ - s₋))` with `softplus y = max y 0 + log (1 + exp (-|y|))`.
  The result's second and third entries are the mean of the loss over the 200000 edges.

  Every sum is a finite sum in the commutative monoid of the extended reals, so no statement here needs an entry to
  be finite.
-/
import Idealize.ShloMosaic.Lib.ValueIdx
import Idealize.ShloMosaic.PureOps.Ideal.Laws

noncomputable section

namespace Cert.Spec

open Idealize.ShloMosaic Idealize.ShloMosaic.ValueIdx

/-- An array of extended reals with `a` rows and `b` columns. -/
abbrev Mat (a b : ℕ) : Type := (⟨2, ![a, b]⟩ : Shape).Idx → EReal

/-- Row `e` of a matrix. -/
def row {a b : ℕ} (x : Mat a b) (e : Fin a) : Fin b → EReal := fun i => x (ix2 e i)

/-- `relu (x · w1) · w2` at column `k`: the perceptron's hidden layer has 128 units. -/
def hidden (x : Fin 256 → EReal) (w1 : Mat 256 128) (w2 : Mat 128 128) (k : Fin 128) : EReal :=
  ∑ l : Fin 128, max (∑ i : Fin 256, x i * w1 (ix2 i l)) 0 * w2 (ix2 l k)

/-- The rating prediction of a row: the rating perceptron's output times `wp`, at class `j`. -/
def rating (x : Fin 256 → EReal) (w1 : Mat 256 128) (w2 : Mat 128 128) (wp : Mat 128 5) (j : Fin 5) : EReal :=
  ∑ k : Fin 128, hidden x w1 w2 k * wp (ix2 k j)

/-- The topic vector of an edge: the topic perceptron's output plus the rating perceptron's. -/
def topic (xr xt : Fin 256 → EReal) (w1r : Mat 256 128) (w2r : Mat 128 128) (w1t : Mat 256 128) (w2t : Mat 128 128)
    (k : Fin 128) : EReal :=
  hidden xt w1t w2t k + hidden xr w1r w2r k

/-- The inner product of a topic vector with a review vector. -/
def score (th p : Fin 128 → EReal) : EReal := ∑ d : Fin 128, th d * p d

/-- `softplus y = max y 0 + log (1 + exp (-|y|))`, with `|y| = max y (-y)`. -/
def softplus (y : EReal) : EReal := max y 0 + Ideal.log1p (Ideal.exp (-(max y (-y))))

/-- Minus the logarithm of the logistic function at `z`. -/
def nls (z : EReal) : EReal := softplus (-z)

/-- The loss of one edge from its two feature rows and its two review vectors. -/
def edgeLoss (xr xt : Fin 256 → EReal) (w1r : Mat 256 128) (w2r : Mat 128 128) (w1t : Mat 256 128) (w2t : Mat 128 128)
    (p n : Fin 128 → EReal) : EReal :=
  nls (score (topic xr xt w1r w2r w1t w2t) p - score (topic xr xt w1r w2r w1t w2t) n)

/-- The first result: the rating prediction of every edge. -/
def ratings (rf : Mat 200000 256) (w1r : Mat 256 128) (w2r : Mat 128 128) (wp : Mat 128 5) (e : Fin 200000) (j : Fin 5) : EReal :=
  rating (row rf e) w1r w2r wp j

/-- The loss of edge `e`. -/
def lossAt (rf tf : Mat 200000 256) (w1r : Mat 256 128) (w2r : Mat 128 128) (w1t : Mat 256 128) (w2t : Mat 128 128)
    (posr negr : Mat 200000 128) (e : Fin 200000) : EReal :=
  edgeLoss (row rf e) (row tf e) w1r w2r w1t w2t (row posr e) (row negr e)

/-- The second and third results: the sum of the losses, from the zero word, divided by the word of 200000. -/
def meanLoss (rf tf : Mat 200000 256) (w1r : Mat 256 128) (w2r : Mat 128 128) (w1t : Mat 256 128) (w2t : Mat 128 128)
    (posr negr : Mat 200000 128) : EReal :=
  Ideal.div (Ideal.ofBits .f32 0x00000000#32 + ∑ e : Fin 200000, lossAt rf tf w1r w2r w1t w2t posr negr e)
    (Ideal.ofBits .f32 0x48435000#32)

/-! ## The two spellings of the loss's scalar chain -/

/-- An extended real is never different from itself, so the test for a missing value answers no. -/
theorem cmp_one_self (d : EReal) : Ideal.cmp .one d d = 0#1 := by simp [Ideal.cmp]

theorem cmp_une_self (d : EReal) : Ideal.cmp .une d d = 0#1 := by simp [Ideal.cmp]

/-- The chain as a kernel body spells it — every negation a subtraction from the zero word, the guarded branch a
    selection — is `nls`. -/
theorem nls_of_sub_chain (z : EReal) :
    Ideal.ofBits .f32 0x00000000#32 - (Ideal.ofBits .f32 0x00000000#32 -
      Scalar.select (Ideal.cmp .one ((Ideal.ofBits .f32 0x00000000#32 - z) - Ideal.ofBits .f32 0x00000000#32)
          ((Ideal.ofBits .f32 0x00000000#32 - z) - Ideal.ofBits .f32 0x00000000#32))
        ((Ideal.ofBits .f32 0x00000000#32 - z) + Ideal.ofBits .f32 0x00000000#32)
        (max (Ideal.ofBits .f32 0x00000000#32 - z) (Ideal.ofBits .f32 0x00000000#32)
          + Ideal.log1p (Ideal.exp (Ideal.ofBits .f32 0x00000000#32 -
              max ((Ideal.ofBits .f32 0x00000000#32 - z) - Ideal.ofBits .f32 0x00000000#32)
                (-((Ideal.ofBits .f32 0x00000000#32 - z) - Ideal.ofBits .f32 0x00000000#32))))))
      = nls z := by
  unfold nls softplus
  rw [cmp_one_self, select_zero]
  simp only [Ideal.ofBits_zero_f32, zero_sub, sub_zero, neg_neg]

/-- The chain as a host program spells it — negations proper — is `nls` too. -/
theorem nls_of_neg_chain (z : EReal) :
    -(-(Scalar.select (Ideal.cmp .une (-z - Ideal.ofBits .f32 0x00000000#32) (-z - Ideal.ofBits .f32 0x00000000#32))
        (-z + Ideal.ofBits .f32 0x00000000#32)
        (max (-z) (Ideal.ofBits .f32 0x00000000#32)
          + Ideal.log1p (Ideal.exp (-(max (-z - Ideal.ofBits .f32 0x00000000#32)
              (-(-z - Ideal.ofBits .f32 0x00000000#32))))))))
      = nls z := by
  unfold nls softplus
  rw [cmp_une_self, select_zero]
  simp only [Ideal.ofBits_zero_f32, sub_zero, neg_neg]

end Cert.Spec

end
-- ==== Proof.LibPlainDot.lean ====
/-
  Two general facts about finite sums, used to read a matrix product and a blocked sum index by index.

  A plain product of an `[M, K]` array with a `[K, N]` array — one contracted axis, no batch axis — read at the
  output position `(r, c)` is the sum over `k : Fin K` of the left operand at `(r, k)` times the right operand at
  `(k, c)`: the contraction index of such a product is its one coordinate. The four coordinate facts of the
  dimension numbers are hypotheses, so the statement applies to any record of this form.

  A sum over `N = A * B` positions is the sum over `A` consecutive blocks of the sums over the `B` positions of
  each block, in any commutative monoid: position `e` is `t * B + r` for exactly one block `t` and offset `r`.
-/
import Idealize.ShloMosaic.Lib.ValueIdx
import Idealize.ShloMosaic.PureOps.Ideal.Laws

noncomputable section

namespace Idealize.ShloMosaic.ValueIdx

/-- The sum over the one-axis contraction index of a plain `[M, K] × [K, N]` product, at output position `(r, c)`,
    is the sum over `k : Fin K` of `lhs (r, k) * rhs (k, c)`. -/
theorem plain_dot_sum {M K N : ℕ} (d : DotDims ⟨2, ![M, K]⟩ ⟨2, ![K, N]⟩ ⟨2, ![M, N]⟩)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : (⟨2, ![M, K]⟩ : Shape).Idx → EReal) (rhs : (⟨2, ![K, N]⟩ : Shape).Idx → EReal) (r : Fin M) (c : Fin N) :
    ∑ q : d.contr.Idx, lhs (d.lhsIdx (ix2 r c) q) * rhs (d.rhsIdx (ix2 r c) q)
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (hl1 _ _).trans hk)
  have er : d.rhsIdx (ix2 r c) ((contrEquiv1 d K hr hs).symm k) = ix2 k c := funext fun a => Fin.ext (by
    match a with
    | ⟨0, _⟩ => exact (hr0 _ _).trans hk
    | ⟨1, _⟩ => exact hr1 _ _)
  rw [el, er]

/-- A sum over `N = A * B` positions is the sum over the `A` blocks of the sums over each block's `B` positions. -/
theorem sum_fin_blocks {M : Type*} [AddCommMonoid M] {N : ℕ} (A B : ℕ) (hN : N = A * B) (g : Fin N → M) :
    ∑ e : Fin N, g e
      = ∑ t : Fin A, ∑ r : Fin B, g ⟨t.val * B + r.val, by
          have h1 : t.val * B + r.val < t.val * B + B := Nat.add_lt_add_left r.isLt _
          have h3 : (t.val + 1) * B ≤ A * B := Nat.mul_le_mul_right B t.isLt
          rw [Nat.add_mul, Nat.one_mul] at h3
          rw [hN]; exact Nat.lt_of_lt_of_le h1 h3⟩ := by
  subst hN
  rw [← Equiv.sum_comp finProdFinEquiv g, Fintype.sum_prod_type]
  refine Finset.sum_congr rfl fun t _ => Finset.sum_congr rfl fun r _ => ?_
  refine congrArg g (Fin.ext ?_)
  show r.val + B * t.val = t.val * B + r.val
  rw [Nat.mul_comm, Nat.add_comm]

end Idealize.ShloMosaic.ValueIdx

end
-- ==== Proof.LibColumnCast.lean ====
/-
  Two small general facts.

  A vector of `a` entries reshaped into a column `[a, 1]` reads, at `(i, u)`, the vector at `i`: both row-major
  positions are `i`. And a sum over `m + n` positions is the sum over the first `m` plus the sum over the last `n`, in
  any commutative monoid; it is stated over an index type `Fin N` with `N = m + n` given as an equation, so that it
  applies to a literal extent.
-/
import Idealize.ShloMosaic.Lib.Pipeline.Value
import Idealize.ShloMosaic.Lib.ValueIdx
import Idealize.ShloMosaic.Lib.ValueLayout

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over `N = m + n` positions splits into the first `m` and the last `n`. -/
theorem sum_fin_split {M : Type*} [AddCommMonoid M] {N : ℕ} (m n : ℕ) (hN : N = m + n) (g : Fin N → M) :
    ∑ k : Fin N, g k
      = ∑ k : Fin m, g ⟨k.val, by have := k.isLt; omega⟩ + ∑ k : Fin n, g ⟨m + k.val, by have := k.isLt; omega⟩ := by
  subst hN
  rw [Fin.sum_univ_add]
  rfl

end Idealize.ShloMosaic.ValueIdx

end
-- ==== Proof.KernelPay.lean ====
/-
  The kernel body's arithmetic, read at an index, is the specification's per-row functions.

  The body works on a block of 2000 edges. Its three matrix products are plain products with one contracted axis
  into a zero accumulator, so each entry is a finite sum; the rounding to a shorter float format before each product is
  the identity on extended reals; the two row sums over the 128 columns are finite sums; reshaping a vector of 2000 row
  sums into a column does not move an entry. Hence row `r` of the block's rating output is `Spec.rating` of row `r` of
  the rating features, and the block's loss entry — the same number at each of its 8 × 128 positions — is the sum over
  the 2000 rows of `Spec.nls` of the difference of the two scores.
-/
import proofs.«155999_j77077483094304_2_alg».proof.Proof.Gen.KernelIdeal.Skeleton
import proofs.«155999_j77077483094304_2_alg».proof.Proof.Spec
import proofs.«155999_j77077483094304_2_alg».proof.Proof.LibPlainDot
import proofs.«155999_j77077483094304_2_alg».proof.Proof.LibColumnCast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Spec

/-! ## The three products' dimension numbers: which coordinate each operand index reads -/

abbrev D1 := dot_S2000x256_S256x128_S2000x128_1_0_0_1_n_n
abbrev D2 := dot_S2000x128_S128x128_S2000x128_1_0_0_1_n_n
abbrev D3 := dot_S2000x128_S128x5_S2000x5_1_0_0_1_n_n

theorem D1_l0 (j : S2000x128.Idx) (q : D1.contr.Idx) : (D1.lhsIdx j q 0).val = (j 0).val := by
  unfold DotDims.lhsIdx
  rw [dif_neg (show ¬(0 : Fin S2000x256.rank) ∈ D1.lhsBatch by decide),
    dif_pos (show (0 : Fin S2000x256.rank) ∈ D1.lhsNonContracting by decide)]
  rfl
theorem D1_l1 (j : S2000x128.Idx) (q : D1.contr.Idx) : (D1.lhsIdx j q 1).val = (q ⟨0, by decide⟩).val :=
  D1.lhsIdx_val_of_single rfl j q
theorem D1_r0 (j : S2000x128.Idx) (q : D1.contr.Idx) : (D1.rhsIdx j q 0).val = (q ⟨0, by decide⟩).val :=
  D1.rhsIdx_val_of_single rfl j q
theorem D1_r1 (j : S2000x128.Idx) (q : D1.contr.Idx) : (D1.rhsIdx j q 1).val = (j 1).val := by
  unfold DotDims.rhsIdx
  rw [dif_neg (show ¬(1 : Fin S256x128.rank) ∈ D1.rhsBatch by decide),
    dif_pos (show (1 : Fin S256x128.rank) ∈ D1.rhsNonContracting by decide)]
  rfl

theorem D2_l0 (j : S2000x128.Idx) (q : D2.contr.Idx) : (D2.lhsIdx j q 0).val = (j 0).val := by
  unfold DotDims.lhsIdx
  rw [dif_neg (show ¬(0 : Fin S2000x128.rank) ∈ D2.lhsBatch by decide),
    dif_pos (show (0 : Fin S2000x128.rank) ∈ D2.lhsNonContracting by decide)]
  rfl
theorem D2_l1 (j : S2000x128.Idx) (q : D2.contr.Idx) : (D2.lhsIdx j q 1).val = (q ⟨0, by decide⟩).val :=
  D2.lhsIdx_val_of_single rfl j q
theorem D2_r0 (j : S2000x128.Idx) (q : D2.contr.Idx) : (D2.rhsIdx j q 0).val = (q ⟨0, by decide⟩).val :=
  D2.rhsIdx_val_of_single rfl j q
theorem D2_r1 (j : S2000x128.Idx) (q : D2.contr.Idx) : (D2.rhsIdx j q 1).val = (j 1).val := by
  unfold DotDims.rhsIdx
  rw [dif_neg (show ¬(1 : Fin S128x128.rank) ∈ D2.rhsBatch by decide),
    dif_pos (show (1 : Fin S128x128.rank) ∈ D2.rhsNonContracting by decide)]
  rfl

theorem D3_l0 (j : S2000x5.Idx) (q : D3.contr.Idx) : (D3.lhsIdx j q 0).val = (j 0).val := by
  unfold DotDims.lhsIdx
  rw [dif_neg (show ¬(0 : Fin S2000x128.rank) ∈ D3.lhsBatch by decide),
    dif_pos (show (0 : Fin S2000x128.rank) ∈ D3.lhsNonContracting by decide)]
  rfl
theorem D3_l1 (j : S2000x5.Idx) (q : D3.contr.Idx) : (D3.lhsIdx j q 1).val = (q ⟨0, by decide⟩).val :=
  D3.lhsIdx_val_of_single rfl j q
theorem D3_r0 (j : S2000x5.Idx) (q : D3.contr.Idx) : (D3.rhsIdx j q 0).val = (q ⟨0, by decide⟩).val :=
  D3.rhsIdx_val_of_single rfl j q
theorem D3_r1 (j : S2000x5.Idx) (q : D3.contr.Idx) : (D3.rhsIdx j q 1).val = (j 1).val := by
  unfold DotDims.rhsIdx
  rw [dif_neg (show ¬(1 : Fin S128x5.rank) ∈ D3.rhsBatch by decide),
    dif_pos (show (1 : Fin S128x5.rank) ∈ D3.rhsNonContracting by decide)]
  rfl

/-! ## Each product into the zero accumulator, at an entry -/

theorem mm1 (l : FVec Ideal S2000x256 .bf16) (w : FVec Ideal S256x128 .bf16) (r : Fin 2000) (c : Fin 128) :
    matmul (F := Ideal) D1 none l w (constant S2000x128 .f32 0x00000000#32) (ix2 r c)
      = ∑ k : Fin 256, l (ix2 r k) * w (ix2 k c) :=
  (Ideal.matmul_constant_zero_apply D1 none l w (ix2 r c)).trans
    (plain_dot_sum D1 rfl rfl D1_l0 D1_l1 D1_r0 D1_r1 l w r c)

theorem mm2 (l : FVec Ideal S2000x128 .bf16) (w : FVec Ideal S128x128 .bf16) (r : Fin 2000) (c : Fin 128) :
    matmul (F := Ideal) D2 none l w (constant S2000x128 .f32 0x00000000#32) (ix2 r c)
      = ∑ k : Fin 128, l (ix2 r k) * w (ix2 k c) :=
  (Ideal.matmul_constant_zero_apply D2 none l w (ix2 r c)).trans
    (plain_dot_sum D2 rfl rfl D2_l0 D2_l1 D2_r0 D2_r1 l w r c)

theorem mm3 (l : FVec Ideal S2000x128 .bf16) (w : FVec Ideal S128x5 .bf16) (r : Fin 2000) (c : Fin 5) :
    matmul (F := Ideal) D3 none l w (constant S2000x5 .f32 0x00000000#32) (ix2 r c)
      = ∑ k : Fin 128, l (ix2 r k) * w (ix2 k c) :=
  (Ideal.matmul_constant_zero_apply D3 none l w (ix2 r c)).trans
    (plain_dot_sum D3 rfl rfl D3_l0 D3_l1 D3_r0 D3_r1 l w r c)

/-! ## The perceptron's hidden layer and the outputs built on it, at a row -/

/-- Row `r`, column `k` of `relu (x · w1) · w2` over a block: the specification's `hidden` of row `r` of `x`. -/
theorem pay2_apply (v0 : FVec Ideal S2000x256 .bf16) (v4 : FVec Ideal S256x128 .f32) (v6 : FVec Ideal S128x128 .f32)
    (r : Fin 2000) (k : Fin 128) :
    k0_pay2 (F := Ideal) v0 v4 v6 (ix2 r k) = Spec.hidden (fun i => v0 (ix2 r i)) v4 v6 k := by
  unfold k0_pay2 Spec.hidden
  refine (mm2 _ _ r k).trans (Finset.sum_congr rfl fun l _ => ?_)
  show max (matmul (F := Ideal) D1 none (shapeCast S2000x256 v0 shapeCasts_S2000x256_S2000x256)
      (truncf .bf16 v4 bitsLt_bf16_f32) (constant S2000x128 .f32 0x00000000#32) (ix2 r l))
      (Ideal.ofBits .f32 0x00000000#32) * v6 (ix2 l k) = _
  rw [mm1, Ideal.ofBits_zero_f32, shapeCast_self]
  rfl

/-- The block's rating output at row `r`, class `j`. -/
theorem pay3_apply (v0 : FVec Ideal S2000x256 .bf16) (v4 : FVec Ideal S256x128 .f32) (v6 : FVec Ideal S128x128 .f32)
    (v12 : FVec Ideal S128x5 .f32) (r : Fin 2000) (j : Fin 5) :
    k0_pay3 (F := Ideal) v0 v4 v6 v12 (ix2 r j) = rating (fun i => v0 (ix2 r i)) v4 v6 v12 j := by
  unfold k0_pay3 rating
  refine (mm3 _ _ r j).trans (Finset.sum_congr rfl fun k _ => ?_)
  show k0_pay2 (F := Ideal) v0 v4 v6 (ix2 r k) * v12 (ix2 k j) = _
  rw [pay2_apply]

/-- The block's topic vectors: the topic perceptron's output plus the rating perceptron's. -/
theorem pay4_apply (v0 v2 : FVec Ideal S2000x256 .bf16) (v4 : FVec Ideal S256x128 .f32) (v6 : FVec Ideal S128x128 .f32)
    (v8 : FVec Ideal S256x128 .f32) (v10 : FVec Ideal S128x128 .f32) (r : Fin 2000) (k : Fin 128) :
    k0_pay4 (F := Ideal) v0 v2 v4 v6 v8 v10 (ix2 r k)
      = topic (fun i => v0 (ix2 r i)) (fun i => v2 (ix2 r i)) v4 v6 v8 v10 k := by
  unfold k0_pay4 topic
  show k0_pay2 (F := Ideal) v2 v8 v10 (ix2 r k) + k0_pay2 (F := Ideal) v0 v4 v6 (ix2 r k) = _
  rw [pay2_apply, pay2_apply]

/-- A block of review vectors passes through unchanged. -/
theorem pay5_eq (v29 : FVec Ideal S2000x128 .f32) : k0_pay5 (F := Ideal) v29 = v29 :=
  shapeCast_self v29 _

/-- The sum of a block's row `r` over its 128 columns. -/
theorem rowsum (x : FVec Ideal S2000x128 .f32) (r : Fin 2000) :
    multiReduction (F := Ideal) .add [1] S2000 x 0x00000000#32 reduces_S2000x128_S2000 (.inl rfl) rfl (ix1 r)
      = ∑ d : Fin 128, x (ix2 r d) := by
  refine (Ideal.multiReduction_add_single x 0x00000000#32 reduces_S2000x128_S2000 (.inl rfl) rfl (ix1 r)).trans ?_
  refine Finset.sum_congr rfl fun d _ => congrArg x ?_
  funext a; apply Fin.ext
  match a with
  | ⟨0, _⟩ => rfl
  | ⟨1, _⟩ => rfl

/-- The block's first score, row by row: the topic vector against the first review vector. -/
theorem pay6_apply (v0 v2 : FVec Ideal S2000x256 .bf16) (v4 : FVec Ideal S256x128 .f32) (v6 : FVec Ideal S128x128 .f32)
    (v8 : FVec Ideal S256x128 .f32) (v10 : FVec Ideal S128x128 .f32) (v27 : FVec Ideal S2000x128 .f32) (r : Fin 2000) :
    k0_pay6 (F := Ideal) v0 v2 v4 v6 v8 v10 v27 (ix1 r)
      = score (topic (fun i => v0 (ix2 r i)) (fun i => v2 (ix2 r i)) v4 v6 v8 v10) (fun d => v27 (ix2 r d)) := by
  unfold k0_pay6 score
  refine (rowsum _ r).trans (Finset.sum_congr rfl fun d _ => ?_)
  show k0_pay4 (F := Ideal) v0 v2 v4 v6 v8 v10 (ix2 r d)
    * shapeCast S2000x128 v27 shapeCasts_S2000x128_S2000x128 (ix2 r d) = _
  rw [pay4_apply, shapeCast_self]

/-! ## The block's loss entry -/

/-- A column of 2000 numbers summed to one, reshaped, read out and spread over the 8 × 128 positions of the block's loss
    entry: every position holds the sum of the column. -/
theorem spread_colsum (x : FVec Ideal S2000x1 .f32) (y : S1x8x128.Idx) :
    broadcast S1x8x128 (extractAt ![0, 0] (shapeCast S1x1 (multiReduction (F := Ideal) .add [0] S1 x 0x00000000#32
      reduces_S2000x1_S1 (.inl rfl) rfl) shapeCasts_S1_S1x1) inpos_S1x1_p0_0) y = ∑ r : Fin 2000, x (ix2 r 0) := by
  refine (shapeCast_apply _ shapeCasts_S1_S1x1 _ (ix1 (0 : Fin 1)) rfl).trans ?_
  refine (Ideal.multiReduction_add_single x 0x00000000#32 reduces_S2000x1_S1 (.inl rfl) rfl (ix1 0)).trans ?_
  refine Finset.sum_congr rfl fun r _ => congrArg x ?_
  funext a; apply Fin.ext
  match a with
  | ⟨0, _⟩ => rfl
  | ⟨1, _⟩ => rfl

/-- The difference of the two scores of row `r`, as the body forms it from a vector of first scores and a second row
    sum, both reshaped into columns. -/
theorem diff_apply (v26 v30 : FVec Ideal S2000x128 .f32) (v32 : FVec Ideal S2000 .f32) (r : Fin 2000) :
    subf (shapeCast S2000x1 v32 shapeCasts_S2000_S2000x1)
        (shapeCast S2000x1 (multiReduction (F := Ideal) .add [1] S2000 (mulf v26 v30) 0x00000000#32
          reduces_S2000x128_S2000 (.inl rfl) rfl) shapeCasts_S2000_S2000x1) (ix2 r 0)
      = v32 (ix1 r) - ∑ d : Fin 128, v26 (ix2 r d) * v30 (ix2 r d) := by
  show shapeCast S2000x1 v32 shapeCasts_S2000_S2000x1 (ix2 r 0)
      - shapeCast S2000x1 (multiReduction (F := Ideal) .add [1] S2000 (mulf v26 v30) 0x00000000#32
          reduces_S2000x128_S2000 (.inl rfl) rfl) shapeCasts_S2000_S2000x1 (ix2 r 0) = _
  rw [shapeCast_a_a1_apply, shapeCast_a_a1_apply, rowsum]
  rfl

/-- Every position of the block's loss entry holds the sum over the block's 2000 rows of minus the logarithm of the
    logistic function at the difference of the row's two scores. -/
theorem pay1_apply (v26 v30 : FVec Ideal S2000x128 .f32) (v32 : FVec Ideal S2000 .f32) (y : S1x8x128.Idx) :
    k0_pay1 (F := Ideal) v26 v30 v32 y
      = ∑ r : Fin 2000, nls (v32 (ix1 r) - ∑ d : Fin 128, v26 (ix2 r d) * v30 (ix2 r d)) := by
  unfold k0_pay1
  refine (spread_colsum _ y).trans (Finset.sum_congr rfl fun r _ => ?_)
  rw [← diff_apply v26 v30 v32 r]
  exact nls_of_sub_chain _

end Cert.KernelIdeal.Pay

end
-- ==== Proof.KernelBlocks.lean ====
/-
  From blocks to arrays: what the two output arrays of the kernel hold after its hundred grid points.

  Point `t` of the grid stages rows `2000 t … 2000 t + 1999` of the four per-edge input arrays and the whole of each
  of the five weight arrays, and writes back rows `2000 t … 2000 t + 1999` of the rating output and the `t`-th
  `8 × 128` tile of the loss output. Row `r` of point `t`'s block is edge `2000 t + r`; the hundred row ranges tile
  the 200000 edges, so the rating output ends holding the specification's rating of every edge, and tile `t` of the
  loss output holds, at each of its positions, the sum of the losses of the 2000 edges of block `t`.
-/
import proofs.«155999_j77077483094304_2_alg».proof.Proof.Gen.KernelIdeal.Frame
import proofs.«155999_j77077483094304_2_alg».proof.Proof.KernelPay

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pay

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Which block each window stages at point `t`: decided once over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 3) = t.val ∧ win0_10.index t (1 : Fin 3) = 0
    ∧ win0_10.index t (2 : Fin 3) = 0 :=
  (by decide +kernel : ∀ t : Fin grid0.N, _)

theorem lt100 (t : Fin cfg0.N) : t.val < 100 := Nat.lt_of_lt_of_eq t.isLt N_0

/-- Row `r` of point `t`'s block is edge `2000 t + r`. -/
def edge (t : Fin cfg0.N) (r : Fin 2000) : Fin 200000 :=
  ⟨t.val * 2000 + r.val, by have := lt100 t; have := r.isLt; omega⟩

/-! ## The input blocks as rows of the arrays the region finds -/

theorem iblk0_apply (c : Dev nD) (t : Fin cfg0.N) (r : Fin 2000) (i : Fin 256) :
    (iblk m c 0 t : FVec Ideal S2000x256 .bf16) (ix2 r i)
      = (V m c main_v15 : S200000x256.Idx → EReal) (ix2 (edge t r) i) := by
  unfold iblk
  rw [View.read_apply]
  show V m c main_v15 _ = V m c main_v15 _
  congr 1
  funext a; apply Fin.ext
  obtain ⟨e0, e1⟩ := idx0 t
  match a with
  | ⟨0, _⟩ => show win0_0.index t (0 : Fin 2) * 2000 + 1 * r.val = t.val * 2000 + r.val; rw [e0]; omega
  | ⟨1, _⟩ => show win0_0.index t (1 : Fin 2) * 256 + 1 * i.val = i.val; rw [e1]; omega

theorem iblk1_apply (c : Dev nD) (t : Fin cfg0.N) (r : Fin 2000) (i : Fin 256) :
    (iblk m c 1 t : FVec Ideal S2000x256 .bf16) (ix2 r i)
      = (V m c main_v31 : S200000x256.Idx → EReal) (ix2 (edge t r) i) := by
  unfold iblk
  rw [View.read_apply]
  show V m c main_v31 _ = V m c main_v31 _
  congr 1
  funext a; apply Fin.ext
  obtain ⟨e0, e1⟩ := idx1 t
  match a with
  | ⟨0, _⟩ => show win0_1.index t (0 : Fin 2) * 2000 + 1 * r.val = t.val * 2000 + r.val; rw [e0]; omega
  | ⟨1, _⟩ => show win0_1.index t (1 : Fin 2) * 256 + 1 * i.val = i.val; rw [e1]; omega

theorem iblk7_apply (c : Dev nD) (t : Fin cfg0.N) (r : Fin 2000) (d : Fin 128) :
    (iblk m c 7 t : FVec Ideal S2000x128 .f32) (ix2 r d)
      = (V m c main_v55 : S200000x128.Idx → EReal) (ix2 (edge t r) d) := by
  unfold iblk
  rw [View.read_apply]
  show V m c main_v55 _ = V m c main_v55 _
  congr 1
  funext a; apply Fin.ext
  obtain ⟨e0, e1⟩ := idx7 t
  match a with
  | ⟨0, _⟩ => show win0_7.index t (0 : Fin 2) * 2000 + 1 * r.val = t.val * 2000 + r.val; rw [e0]; omega
  | ⟨1, _⟩ => show win0_7.index t (1 : Fin 2) * 128 + 1 * d.val = d.val; rw [e1]; omega

theorem iblk8_apply (c : Dev nD) (t : Fin cfg0.N) (r : Fin 2000) (d : Fin 128) :
    (iblk m c 8 t : FVec Ideal S2000x128 .f32) (ix2 r d)
      = (V m c main_v65 : S200000x128.Idx → EReal) (ix2 (edge t r) d) := by
  unfold iblk
  rw [View.read_apply]
  show V m c main_v65 _ = V m c main_v65 _
  congr 1
  funext a; apply Fin.ext
  obtain ⟨e0, e1⟩ := idx8 t
  match a with
  | ⟨0, _⟩ => show win0_8.index t (0 : Fin 2) * 2000 + 1 * r.val = t.val * 2000 + r.val; rw [e0]; omega
  | ⟨1, _⟩ => show win0_8.index t (1 : Fin 2) * 128 + 1 * d.val = d.val; rw [e1]; omega

/-! Each weight window stages its whole array at every point. -/

theorem iblk2_eq (c : Dev nD) (t : Fin cfg0.N) :
    (iblk m c 2 t : FVec Ideal S256x128 .f32) = (V m c main_arg4 : S256x128.Idx → EReal) := by
  funext x
  unfold iblk
  rw [View.read_apply]
  show V m c main_arg4 _ = V m c main_arg4 x
  congr 1
  funext a; apply Fin.ext
  obtain ⟨e0, e1⟩ := idx2 t
  match a with
  | ⟨0, _⟩ => show win0_2.index t (0 : Fin 2) * 256 + 1 * (x 0).val = (x 0).val; rw [e0]; omega
  | ⟨1, _⟩ => show win0_2.index t (1 : Fin 2) * 128 + 1 * (x 1).val = (x 1).val; rw [e1]; omega

theorem iblk3_eq (c : Dev nD) (t : Fin cfg0.N) :
    (iblk m c 3 t : FVec Ideal S128x128 .f32) = (V m c main_arg5 : S128x128.Idx → EReal) := by
  funext x
  unfold iblk
  rw [View.read_apply]
  show V m c main_arg5 _ = V m c main_arg5 x
  congr 1
  funext a; apply Fin.ext
  obtain ⟨e0, e1⟩ := idx3 t
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

theorem iblk4_eq (c : Dev nD) (t : Fin cfg0.N) :
    (iblk m c 4 t : FVec Ideal S256x128 .f32) = (V m c main_arg6 : S256x128.Idx → EReal) := by
  funext x
  unfold iblk
  rw [View.read_apply]
  show V m c main_arg6 _ = V m c main_arg6 x
  congr 1
  funext a; apply Fin.ext
  obtain ⟨e0, e1⟩ := idx4 t
  match a with
  | ⟨0, _⟩ => show win0_4.index t (0 : Fin 2) * 256 + 1 * (x 0).val = (x 0).val; rw [e0]; omega
  | ⟨1, _⟩ => show win0_4.index t (1 : Fin 2) * 128 + 1 * (x 1).val = (x 1).val; rw [e1]; omega

theorem iblk5_eq (c : Dev nD) (t : Fin cfg0.N) :
    (iblk m c 5 t : FVec Ideal S128x128 .f32) = (V m c main_arg7 : S128x128.Idx → EReal) := by
  funext x
  unfold iblk
  rw [View.read_apply]
  show V m c main_arg7 _ = V m c main_arg7 x
  congr 1
  funext a; apply Fin.ext
  obtain ⟨e0, e1⟩ := idx5 t
  match a with
  | ⟨0, _⟩ => show win0_5.index t (0 : Fin 2) * 128 + 1 * (x 0).val = (x 0).val; rw [e0]; omega
  | ⟨1, _⟩ => show win0_5.index t (1 : Fin 2) * 128 + 1 * (x 1).val = (x 1).val; rw [e1]; omega

theorem iblk6_eq (c : Dev nD) (t : Fin cfg0.N) :
    (iblk m c 6 t : FVec Ideal S128x5 .f32) = (V m c main_arg8 : S128x5.Idx → EReal) := by
  funext x
  unfold iblk
  rw [View.read_apply]
  show V m c main_arg8 _ = V m c main_arg8 x
  congr 1
  funext a; apply Fin.ext
  obtain ⟨e0, e1⟩ := idx6 t
  match a with
  | ⟨0, _⟩ => show win0_6.index t (0 : Fin 2) * 128 + 1 * (x 0).val = (x 0).val; rw [e0]; omega
  | ⟨1, _⟩ => show win0_6.index t (1 : Fin 2) * 5 + 1 * (x 1).val = (x 1).val; rw [e1]; omega

end Cert.KernelIdeal.Blocks

end
-- ==== Proof.KernelOut.lean ====
/-
  The two output arrays after the run.

  Point `t` writes back, into rows `2000 t … 2000 t + 1999` of the rating output, the specification's rating of edges
  `2000 t … 2000 t + 1999`, and into tile `t` of the loss output the sum of the losses of those edges, the same number
  at each of the tile's `8 × 128` positions. Edge `e` lies in point `e / 2000`'s rows and tile `k` is point `k`'s, so
  the blocks tile both arrays and each array ends holding one function of the arrays the region found.
-/
import proofs.«155999_j77077483094304_2_alg».proof.Proof.KernelBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Out

open Cert.KernelIdeal Cert.KernelIdeal.Gen Cert.KernelIdeal.Pay Cert.KernelIdeal.Blocks

variable (m : (ℓ : Loc nD τ sig) → Buf (Elt Ideal) ℓ) (ρ : Dev nD → PrngReg)

/-! ## The arrays the region finds, under the specification's names -/

abbrev RF (c : Dev nD) : Spec.Mat 200000 256 := (V m c main_v15 : S200000x256.Idx → EReal)
abbrev TF (c : Dev nD) : Spec.Mat 200000 256 := (V m c main_v31 : S200000x256.Idx → EReal)
abbrev W1R (c : Dev nD) : Spec.Mat 256 128 := (V m c main_arg4 : S256x128.Idx → EReal)
abbrev W2R (c : Dev nD) : Spec.Mat 128 128 := (V m c main_arg5 : S128x128.Idx → EReal)
abbrev W1T (c : Dev nD) : Spec.Mat 256 128 := (V m c main_arg6 : S256x128.Idx → EReal)
abbrev W2T (c : Dev nD) : Spec.Mat 128 128 := (V m c main_arg7 : S128x128.Idx → EReal)
abbrev WP (c : Dev nD) : Spec.Mat 128 5 := (V m c main_arg8 : S128x5.Idx → EReal)
abbrev PR (c : Dev nD) : Spec.Mat 200000 128 := (V m c main_v55 : S200000x128.Idx → EReal)
abbrev NR (c : Dev nD) : Spec.Mat 200000 128 := (V m c main_v65 : S200000x128.Idx → EReal)

/-! ## The rating output -/

/-- What the rating output ends holding: the rating of edge `i 0` at class `i 1`. -/
def ratingArr (c : Dev nD) : S200000x5.Idx → EReal := fun i =>
  Spec.ratings (RF m c) (W1R m c) (W2R m c) (WP m c) ⟨(i 0).val, idx2_lt0 i⟩ ⟨(i 1).val, idx2_lt1 i⟩

/-- Position `(r, q)` of point `t`'s block of the rating output is position `(2000 t + r, q)` of the array. -/
theorem emb9 (t : Fin cfg0.N) (r : Fin 2000) (q : Fin 5) :
    ((cfg0.win 9).blk t).view.emb (ix2 r q : S2000x5.Idx) = ix2 (edge t r) q := by
  funext a; apply Fin.ext
  obtain ⟨e0, e1⟩ := idx9 t
  match a with
  | ⟨0, _⟩ => show win0_9.index t (0 : Fin 2) * 2000 + 1 * r.val = t.val * 2000 + r.val; rw [e0]; omega
  | ⟨1, _⟩ => show win0_9.index t (1 : Fin 2) * 5 + 1 * q.val = q.val; rw [e1]; omega

set_option maxHeartbeats 4000000 in
/-- What point `t` writes back is block `t` of `ratingArr`. -/
theorem flushed9_eq (c : Dev nD) (t : Fin cfg0.N) :
    (dats m 0 c).flushed 9 t = ((cfg0.win 9).blk t).view.read (Elt Ideal) (ratingArr m c) := by
  show (cfg0.win 9).cut (grid0.coords t) ((dats m 0 c).after 9 t) = _
  rw [after0_9]
  unfold out0_9
  rw [View.canon_unit_zero hz2]
  simp only [View.ld_unit_zero (S := S2000x256) hz2, View.ld_unit_zero (S := S256x128) hz2,
    View.ld_unit_zero (S := S128x128) hz2, View.ld_unit_zero (S := S128x5) hz2]
  funext j
  obtain ⟨r, q, rfl⟩ : ∃ (r : Fin 2000) (q : Fin 5), j = ix2 r q := ⟨j 0, j 1, eq_ix2 j⟩
  show k0_pay3 (F := Ideal) (iblk m c 0 t) (iblk m c 2 t) (iblk m c 3 t) (iblk m c 6 t) (ix2 r q)
    = ratingArr m c (((cfg0.win 9).blk t).view.emb (ix2 r q : S2000x5.Idx))
  rw [emb9]
  refine (pay3_apply (iblk m c 0 t) (iblk m c 2 t) (iblk m c 3 t) (iblk m c 6 t) r q).trans ?_
  rw [iblk2_eq, iblk3_eq, iblk6_eq]
  show Spec.rating (fun i => (iblk m c 0 t : FVec Ideal S2000x256 .bf16) (ix2 r i)) (W1R m c) (W2R m c) (WP m c) q
    = Spec.rating (Spec.row (RF m c) (edge t r)) (W1R m c) (W2R m c) (WP m c) q
  congr 1
  funext i
  exact iblk0_apply m c t r i

/-- An index of the rating output is in point `t`'s block iff each coordinate is in the block's range. -/
theorem mem_blk9 (t : Fin cfg0.N) (i : S200000x5.Idx) :
    i ∈ ((cfg0.win 9).blk t).view.set ↔ ∀ a : Fin 2, win0_9.index t a * S2000x5.size a ≤ (i a).val
      ∧ (i a).val < win0_9.index t a * S2000x5.size a + S2000x5.size a := by
  show i ∈ ((View.whole main_v66_0).slice (win0_9.rect t)).set ↔ _
  rw [View.set_slice_whole, Rect.mem_set_unit]
  exact Iff.rfl

/-- Every position of the rating output is in some point's block: row `e` in point `e / 2000`'s. -/
theorem cover9 (i : S200000x5.Idx) :
    ∃ t : Fin cfg0.N, (cfg0.win 9).flush t = true ∧ i ∈ ((cfg0.win 9).blk t).view.set := by
  have h0 : (i 0).val < 200000 := (i 0).isLt
  have h1 : (i 1).val < 5 := (i 1).isLt
  have hN : cfg0.N = 100 := N_0
  refine ⟨⟨(i 0).val / 2000, by rw [hN]; omega⟩, flush0_9 _, ?_⟩
  rw [mem_blk9]
  obtain ⟨e0, e1⟩ := idx9 ⟨(i 0).val / 2000, by rw [hN]; omega⟩
  intro a
  match a with
  | ⟨0, _⟩ =>
    show win0_9.index ⟨(i 0).val / 2000, _⟩ (0 : Fin 2) * 2000 ≤ (i 0).val
      ∧ (i 0).val < win0_9.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win0_9.index ⟨(i 0).val / 2000, _⟩ (1 : Fin 2) * 5 ≤ (i 1).val
      ∧ (i 1).val < win0_9.index ⟨(i 0).val / 2000, _⟩ (1 : Fin 2) * 5 + 5
    rw [e1]; omega

/-- The rating output after the run. -/
theorem final9 (c : Dev nD) : (dats m 0 c).arrAt 9 cfg0.N = ratingArr m c :=
  (dats m 0 c).arrAt_eq_of_cover 9 (ratingArr m c) (fun t _ => flushed9_eq m c t) cover9

/-! ## The loss output -/

/-- What the loss output ends holding: every position of tile `i 0` holds the sum of the losses of that tile's 2000 edges. -/
def partArr (c : Dev nD) : S100x8x128.Idx → EReal := fun i =>
  ∑ r : Fin 2000, Spec.lossAt (RF m c) (TF m c) (W1R m c) (W2R m c) (W1T m c) (W2T m c) (PR m c) (NR m c)
    ⟨(i 0).val * 2000 + r.val, by have h : (i 0).val < 100 := (i 0).isLt; have := r.isLt; omega⟩

set_option maxHeartbeats 4000000 in
/-- The loss of row `r` of point `t`'s blocks, as the body's payloads give it, is the loss of edge `2000 t + r`. -/
theorem row_loss (c : Dev nD) (t : Fin cfg0.N) (r : Fin 2000) :
    Spec.nls (k0_pay6 (F := Ideal) (iblk m c 0 t) (iblk m c 1 t) (iblk m c 2 t) (iblk m c 3 t) (iblk m c 4 t)
          (iblk m c 5 t) (iblk m c 7 t) (ix1 r)
        - ∑ d : Fin 128, k0_pay4 (F := Ideal) (iblk m c 0 t) (iblk m c 1 t) (iblk m c 2 t) (iblk m c 3 t)
            (iblk m c 4 t) (iblk m c 5 t) (ix2 r d) * k0_pay5 (F := Ideal) (iblk m c 8 t) (ix2 r d))
      = Spec.lossAt (RF m c) (TF m c) (W1R m c) (W2R m c) (W1T m c) (W2T m c) (PR m c) (NR m c) (edge t r) := by
  have hx : (fun i => (iblk m c 0 t : FVec Ideal S2000x256 .bf16) (ix2 r i)) = Spec.row (RF m c) (edge t r) :=
    funext fun i => iblk0_apply m c t r i
  have ht : (fun i => (iblk m c 1 t : FVec Ideal S2000x256 .bf16) (ix2 r i)) = Spec.row (TF m c) (edge t r) :=
    funext fun i => iblk1_apply m c t r i
  have hp : (fun d => (iblk m c 7 t : FVec Ideal S2000x128 .f32) (ix2 r d)) = Spec.row (PR m c) (edge t r) :=
    funext fun d => iblk7_apply m c t r d
  have hth : ∀ d : Fin 128, k0_pay4 (F := Ideal) (iblk m c 0 t) (iblk m c 1 t) (iblk m c 2 t) (iblk m c 3 t)
      (iblk m c 4 t) (iblk m c 5 t) (ix2 r d)
      = Spec.topic (Spec.row (RF m c) (edge t r)) (Spec.row (TF m c) (edge t r)) (W1R m c) (W2R m c) (W1T m c)
          (W2T m c) d := fun d =>
    (pay4_apply (iblk m c 0 t) (iblk m c 1 t) (iblk m c 2 t) (iblk m c 3 t) (iblk m c 4 t) (iblk m c 5 t) r d).trans
      (by rw [hx, ht, iblk2_eq, iblk3_eq, iblk4_eq, iblk5_eq])
  have h6 : k0_pay6 (F := Ideal) (iblk m c 0 t) (iblk m c 1 t) (iblk m c 2 t) (iblk m c 3 t) (iblk m c 4 t)
      (iblk m c 5 t) (iblk m c 7 t) (ix1 r)
      = Spec.score (Spec.topic (Spec.row (RF m c) (edge t r)) (Spec.row (TF m c) (edge t r)) (W1R m c) (W2R m c)
          (W1T m c) (W2T m c)) (Spec.row (PR m c) (edge t r)) :=
    (pay6_apply (iblk m c 0 t) (iblk m c 1 t) (iblk m c 2 t) (iblk m c 3 t) (iblk m c 4 t) (iblk m c 5 t)
      (iblk m c 7 t) r).trans (by rw [hx, ht, hp, iblk2_eq, iblk3_eq, iblk4_eq, iblk5_eq])
  have hsum : (∑ d : Fin 128, k0_pay4 (F := Ideal) (iblk m c 0 t) (iblk m c 1 t) (iblk m c 2 t) (iblk m c 3 t)
      (iblk m c 4 t) (iblk m c 5 t) (ix2 r d) * k0_pay5 (F := Ideal) (iblk m c 8 t) (ix2 r d))
      = Spec.score (Spec.topic (Spec.row (RF m c) (edge t r)) (Spec.row (TF m c) (edge t r)) (W1R m c) (W2R m c)
          (W1T m c) (W2T m c)) (Spec.row (NR m c) (edge t r)) := by
    unfold Spec.score
    refine Finset.sum_congr rfl fun d _ => ?_
    rw [hth d, pay5_eq (iblk m c 8 t), iblk8_apply m c t r d]
    rfl
  rw [h6, hsum]
  rfl

set_option maxHeartbeats 4000000 in
/-- What point `t` writes back is tile `t` of `partArr`. -/
theorem flushed10_eq (c : Dev nD) (t : Fin cfg0.N) :
    (dats m 0 c).flushed 10 t = ((cfg0.win 10).blk t).view.read (Elt Ideal) (partArr m c) := by
  show (cfg0.win 10).cut (grid0.coords t) ((dats m 0 c).after 10 t) = _
  rw [after0_10]
  unfold out0_10
  rw [View.canon_unit_zero hz3]
  simp only [View.ld_unit_zero (S := S2000x256) hz2, View.ld_unit_zero (S := S256x128) hz2,
    View.ld_unit_zero (S := S128x128) hz2, View.ld_unit_zero (S := S2000x128) hz2]
  funext y
  show k0_pay1 (F := Ideal)
      (k0_pay4 (iblk m c 0 t) (iblk m c 1 t) (iblk m c 2 t) (iblk m c 3 t) (iblk m c 4 t) (iblk m c 5 t))
      (k0_pay5 (iblk m c 8 t))
      (k0_pay6 (iblk m c 0 t) (iblk m c 1 t) (iblk m c 2 t) (iblk m c 3 t) (iblk m c 4 t) (iblk m c 5 t) (iblk m c 7 t)) y
    = partArr m c (((cfg0.win 10).blk t).view.emb y)
  refine (pay1_apply _ _ _ y).trans ?_
  unfold partArr
  refine Finset.sum_congr rfl fun r _ => ?_
  refine (row_loss m c t r).trans (congrArg _ (Fin.ext ?_))
  obtain ⟨e0, -, -⟩ := idx10 t
  have hy : (y 0).val < 1 := (y 0).isLt
  show t.val * 2000 + r.val = (win0_10.index t (0 : Fin 3) * 1 + 1 * (y 0).val) * 2000 + r.val
  rw [e0]; omega

/-- An index of the loss output is in point `t`'s tile iff each coordinate is in the tile's range. -/
theorem mem_blk10 (t : Fin cfg0.N) (i : S100x8x128.Idx) :
    i ∈ ((cfg0.win 10).blk t).view.set ↔ ∀ a : Fin 3, win0_10.index t a * S1x8x128.size a ≤ (i a).val
      ∧ (i a).val < win0_10.index t a * S1x8x128.size a + S1x8x128.size a := by
  show i ∈ ((View.whole main_v66_1).slice (win0_10.rect t)).set ↔ _
  rw [View.set_slice_whole, Rect.mem_set_unit]
  exact Iff.rfl

/-- Every position of the loss output is in some point's tile: tile `k` is point `k`'s. -/
theorem cover10 (i : S100x8x128.Idx) :
    ∃ t : Fin cfg0.N, (cfg0.win 10).flush t = true ∧ i ∈ ((cfg0.win 10).blk t).view.set := by
  have h0 : (i 0).val < 100 := (i 0).isLt
  have h1 : (i 1).val < 8 := (i 1).isLt
  have h2 : (i 2).val < 128 := (i 2).isLt
  have hN : cfg0.N = 100 := N_0
  refine ⟨⟨(i 0).val, by rw [hN]; exact h0⟩, flush0_10 _, ?_⟩
  rw [mem_blk10]
  obtain ⟨e0, e1, e2⟩ := idx10 ⟨(i 0).val, by rw [hN]; exact h0⟩
  intro a
  match a with
  | ⟨0, _⟩ =>
    show win0_10.index ⟨(i 0).val, _⟩ (0 : Fin 3) * 1 ≤ (i 0).val
      ∧ (i 0).val < win0_10.index ⟨(i 0).val, _⟩ (0 : Fin 3) * 1 + 1
    rw [e0]; show (i 0).val * 1 ≤ (i 0).val ∧ (i 0).val < (i 0).val * 1 + 1; omega
  | ⟨1, _⟩ =>
    show win0_10.index ⟨(i 0).val, _⟩ (1 : Fin 3) * 8 ≤ (i 1).val
      ∧ (i 1).val < win0_10.index ⟨(i 0).val, _⟩ (1 : Fin 3) * 8 + 8
    rw [e1]; omega
  | ⟨2, _⟩ =>
    show win0_10.index ⟨(i 0).val, _⟩ (2 : Fin 3) * 128 ≤ (i 2).val
      ∧ (i 2).val < win0_10.index ⟨(i 0).val, _⟩ (2 : Fin 3) * 128 + 128
    rw [e2]; omega

/-- The loss output after the run. -/
theorem final10 (c : Dev nD) : (dats m 0 c).arrAt 10 cfg0.N = partArr m c :=
  (dats m 0 c).arrAt_eq_of_cover 10 (partArr m c) (fun t _ => flushed10_eq m c t) cover10

end Cert.KernelIdeal.Out

end
-- ==== Proof.KernelRun.lean ====
/-
  The kernel's run, read: its first result is the rating of every edge and its second the mean loss.

  After the region the host takes position `(k, 0, 0)` of each of the hundred tiles of the loss output, adds the
  hundred numbers from the zero word, and divides by the word of 200000. Tile `k` holds the sum of the losses of edges
  `2000 k … 2000 k + 1999`, and the hundred ranges tile the 200000 edges, so the hundred partial sums add up to the sum
  over all edges: a sum over `100 * 2000` positions is the sum over the hundred blocks of the sums over each block.
-/
import proofs.«155999_j77077483094304_2_alg».proof.Proof.KernelOut
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Blocks Cert.KernelIdeal.Out

/-- A sum over the indices of a one-axis shape is the sum over that axis's coordinates. -/
theorem sum_idx1 {M : Type*} [AddCommMonoid M] {n : ℕ} (f : (⟨1, ![n]⟩ : Shape).Idx → M) :
    ∑ i, f i = ∑ a : Fin n, f (ix1 a) :=
  (Fintype.sum_equiv (⟨fun a => ix1 a, fun i => i 0, fun _ => rfl, fun i => (eq_ix1 i).symm⟩ :
    Fin n ≃ (⟨1, ![n]⟩ : Shape).Idx) (fun a => f (ix1 a)) f fun _ => rfl).symm

/-- The host operations after the region, as one function of the loss output. -/
def tailOf (X : S100x8x128.Idx → EReal) : S_.Idx → EReal :=
  Host.divf (F := Ideal)
    (Host.reduceAdd (F := Ideal)
      (shapeCast S100 (extractStridedSlice S100x1x1 ![0, 0, 0] X slices_S100x8x128_S100x1x1_0_0_0)
        shapeCasts_S100x1x1_S100)
      (constant (F := Ideal) S_ .f32 0x00000000#32) reducesTo_S100_S_d0 h_S_)
    (constant (F := Ideal) S_ .f32 0x48435000#32)

/-- Position `k` of the hundred numbers the host adds is position `(k, 0, 0)` of the loss output. -/
theorem corner_apply (X : S100x8x128.Idx → EReal) (k : Fin 100) :
    shapeCast S100 (extractStridedSlice S100x1x1 ![0, 0, 0] X slices_S100x8x128_S100x1x1_0_0_0)
      shapeCasts_S100x1x1_S100 (ix1 k) = X (ix3 k (0 : Fin 8) (0 : Fin 128)) := by
  refine (shapeCast_apply _ shapeCasts_S100x1x1_S100 (ix1 k) (ix3 k (0 : Fin 1) (0 : Fin 1)) ?_).trans ?_
  · rw [Shape.rowMajor_val_three, Shape.rowMajor_val_one]
    show (k.val * 1 + 0) * 1 + 0 = k.val
    omega
  · refine extractStridedSlice_apply _ X _ (ix3 k (0 : Fin 1) (0 : Fin 1)) (ix3 k (0 : Fin 8) (0 : Fin 128)) fun a => ?_
    match a with
    | ⟨0, _⟩ => exact (Nat.zero_add _).symm
    | ⟨1, _⟩ => exact (Nat.zero_add _).symm
    | ⟨2, _⟩ => exact (Nat.zero_add _).symm

/-- The host tail at its one index: the zero word plus the hundred corner entries, over the word of 200000. -/
theorem tailOf_apply (X : S100x8x128.Idx → EReal) (j : S_.Idx) :
    tailOf X j = Ideal.div (Ideal.ofBits .f32 0x00000000#32 + ∑ k : Fin 100, X (ix3 k (0 : Fin 8) (0 : Fin 128)))
      (Ideal.ofBits .f32 0x48435000#32) := by
  show Ideal.div (Ideal.hostReduceAdd reducesTo_S100_S_d0
      (shapeCast S100 (extractStridedSlice S100x1x1 ![0, 0, 0] X slices_S100x8x128_S100x1x1_0_0_0)
        shapeCasts_S100x1x1_S100) (Ideal.ofBits .f32 0x00000000#32) j) (Ideal.ofBits .f32 0x48435000#32) = _
  rw [Ideal.hostReduceAdd_total reducesTo_S100_S_d0 (fun b => b.elim0), sum_idx1]
  refine congrArg (fun z => Ideal.div (Ideal.ofBits .f32 0x00000000#32 + z) (Ideal.ofBits .f32 0x48435000#32)) ?_
  exact Finset.sum_congr rfl fun k _ => corner_apply X k

variable (m : (ℓ : Loc nD τ sig) → Buf (Elt Ideal) ℓ) (ρ : Dev nD → PrngReg)

/-- The mean loss, from the arrays the region finds. -/
def meanOf (c : Dev nD) : EReal :=
  Spec.meanLoss (RF m c) (TF m c) (W1R m c) (W2R m c) (W1T m c) (W2T m c) (PR m c) (NR m c)

/-- The hundred partial sums add up to the sum over all edges. -/
theorem tail_partArr (c : Dev nD) (j : S_.Idx) : tailOf (partArr m c) j = meanOf m c := by
  rw [tailOf_apply]
  unfold meanOf Spec.meanLoss
  refine congrArg (fun z => Ideal.div (Ideal.ofBits .f32 0x00000000#32 + z) (Ideal.ofBits .f32 0x48435000#32)) ?_
  rw [sum_fin_blocks 100 2000 rfl]
  rfl

/-- The second result: the host tail over the loss output is the mean loss. -/
theorem tail_eq (c : Dev nD) :
    (Pipeline.afterTail₀ cfgs (dats m) 0 (V0 m) [hostOps1] c main_v70 : S_.Idx → EReal) = fun _ => meanOf m c := by
  unfold Pipeline.afterTail₀
  show StableHlo.after hostOps1 _ (Proc.devRef .tc main_v70) = _
  after_results
  have hW := (Pipeline.withArrays_arr spec0 launch0.win.arr_inj c (V0 m c)
    (fun w => (dats m 0 c).arrAt w cfg0.N) 10).trans (final10 m c)
  show tailOf (Pipeline.withArrays spec0 c (V0 m c) (fun w => (dats m 0 c).arrAt w cfg0.N)
    (Proc.devRef .tc (Pipeline.arrRef spec0 10))) = _
  rw [hW]
  funext j
  exact tail_partArr m c j

/-- The run, read: every weakly fair execution terminates with the rating output at the rating of every edge, the loss
    result at the mean loss, and every argument array as it was. -/
theorem run : θ_run defs (onTc (τ := τ) (main (F := Ideal))) ⟨m, fun _ => 0, ρ⟩ fun r => ∀ c : Dev nD,
      r.2.mem ((c.tc : Thread nD τ).loc main_v66_0) = ratingArr m c
      ∧ r.2.mem ((c.tc : Thread nD τ).loc main_v70) = (fun _ => meanOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h c).1 9).trans (final9 m c),
      ((h c).2 main_v70 (Pipeline.mem_restRefs_of main_v70 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩) (run_main m ρ)

end Cert.KernelIdeal.Run

end
-- ==== Proof.KernelChain.lean ====
/-
  The four per-edge arrays the kernel's region reads, as functions of the argument arrays.

  Before the region the host gathers, for every edge, the source user's and the destination item's feature rows (a
  negative row number counts from the end of its table) and lays the two side by side: 256 rating features and 256
  topic features per edge. It pools each edge's ten sentence embeddings into one review vector: their sum, divided by
  the number of positive sentence identifiers plus a small constant. The change to a shorter float format applied to
  the feature arrays is the identity on extended reals, so the arrays the region finds are these terms.
-/
import proofs.«155999_j77077483094304_2_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem

namespace Cert.KernelIdeal.Chain

open Cert.KernelIdeal Cert.KernelIdeal.Gen

/-- The rows of a 100000-row table at `s` beside the rows of a 50000-row table at `d`, edge by edge. -/
def pairTerm (u : FVec Ideal S100000x128 .f32) (v : FVec Ideal S50000x128 .f32) (s d : IVec S200000 32) :
    FVec Ideal S200000x256 .f32 :=
  concatenate S200000x256 1
    [⟨S200000x128, Host.gather gather_S100000x128_S200000x1_S200000x128_1_0_n_n_0_1_1128 u
        (broadcastInDim S200000x1 ![0] bcast_S200000_S200000x1_0
          (select (cmpi .slt s (broadcastInDim S200000 ![] bcast_S_S200000 (constantI S_ 32 0#32)))
            (addi s (broadcastInDim S200000 ![] bcast_S_S200000 (constantI S_ 32 100000#32))) s))⟩,
     ⟨S200000x128, Host.gather gather_S50000x128_S200000x1_S200000x128_1_0_n_n_0_1_1128 v
        (broadcastInDim S200000x1 ![0] bcast_S200000_S200000x1_0
          (select (cmpi .slt d (broadcastInDim S200000 ![] bcast_S_S200000 (constantI S_ 32 0#32)))
            (addi d (broadcastInDim S200000 ![] bcast_S_S200000 (constantI S_ 32 50000#32))) d))⟩]
    concatenates_S200000x128_S200000x128_S200000x256_d1

/-- The pooled review vectors: the sum of each edge's ten embedding rows over the count of its positive sentence
    identifiers plus a small constant. -/
def poolTerm (emb : FVec Ideal S200000x128 .f32) (sid : IVec S200000x10 32) : FVec Ideal S200000x128 .f32 :=
  Host.divf (F := Ideal)
    (Host.reduceAdd (F := Ideal)
      (Host.gather gather_S200000x128_S200000x10x1_S200000x10x128_2_0_n_n_0_2_1128 emb
        (broadcastInDim S200000x10x1 ![0, 1] bcast_S200000x10_S200000x10x1_0_1
          (select (cmpi .slt sid (broadcastInDim S200000x10 ![] bcast_S_S200000x10 (constantI S_ 32 0#32)))
            (addi sid (broadcastInDim S200000x10 ![] bcast_S_S200000x10 (constantI S_ 32 200000#32))) sid)))
      (constant (F := Ideal) S_ .f32 0x00000000#32) reducesTo_S200000x10x128_S200000x128_d1 h_S_)
    (broadcastInDim S200000x128 ![0, 1] bcast_S200000x1_S200000x128_0_1
      (addf
        (broadcastInDim S200000x1 ![0] bcast_S200000_S200000x1_0
          (Host.reduceAdd (F := Ideal)
            (uitofp .f32 (cmpi .sgt sid (broadcastInDim S200000x10 ![] bcast_S_S200000x10 (constantI S_ 32 0#32))))
            (constant (F := Ideal) S_ .f32 0x00000000#32) reducesTo_S200000x10_S200000_d1 h_S_))
        (broadcastInDim S200000x1 ![] bcast_S_S200000x1 (constant (F := Ideal) S_ .f32 0x3089705F#32))))

variable (m : (ℓ : Loc nD τ sig) → Buf (Elt Ideal) ℓ)

/-- The rating features the region finds. -/
theorem V_v15 (c : Dev nD) : (V m c main_v15 : S200000x256.Idx → EReal)
    = pairTerm (m ((c : Thread nD τ).loc main_arg0)) (m ((c : Thread nD τ).loc main_arg1))
        (m ((c : Thread nD τ).loc main_arg10)) (m ((c : Thread nD τ).loc main_arg11)) := by
  show StableHlo.after hostOps0 (fun b => m (c, b)) (Proc.devRef .tc main_v15) = _
  after_results_simp
  rfl

/-- The topic features the region finds. -/
theorem V_v31 (c : Dev nD) : (V m c main_v31 : S200000x256.Idx → EReal)
    = pairTerm (m ((c : Thread nD τ).loc main_arg2)) (m ((c : Thread nD τ).loc main_arg3))
        (m ((c : Thread nD τ).loc main_arg10)) (m ((c : Thread nD τ).loc main_arg11)) := by
  show StableHlo.after hostOps0 (fun b => m (c, b)) (Proc.devRef .tc main_v31) = _
  after_results_simp
  rfl

/-- The first pooled review array the region finds. -/
theorem V_v55 (c : Dev nD) : (V m c main_v55 : S200000x128.Idx → EReal)
    = poolTerm (m ((c : Thread nD τ).loc main_arg9)) (m ((c : Thread nD τ).loc main_arg12)) := by
  show StableHlo.after hostOps0 (fun b => m (c, b)) (Proc.devRef .tc main_v55) = _
  after_results_simp
  rfl

/-- The second pooled review array the region finds. -/
theorem V_v65 (c : Dev nD) : (V m c main_v65 : S200000x128.Idx → EReal)
    = poolTerm (m ((c : Thread nD τ).loc main_arg9)) (m ((c : Thread nD τ).loc main_arg13)) := by
  show StableHlo.after hostOps0 (fun b => m (c, b)) (Proc.devRef .tc main_v65) = _
  after_results_simp
  rfl

end Cert.KernelIdeal.Chain

end
-- ==== Proof.KernelValue.lean ====
/-
  The kernel's two results as functions of the argument arrays.

  The arrays the region finds are the argument arrays themselves (the five weight arrays) or the host's gathered and
  pooled arrays of them, so the rating output and the mean loss are the specification's functions of the gathered
  feature rows, the weights and the pooled review vectors.
-/
import proofs.«155999_j77077483094304_2_alg».proof.Proof.KernelRun
import proofs.«155999_j77077483094304_2_alg».proof.Proof.KernelChain

set_option maxRecDepth 16384

noncomputable section

open Idealize.ShloMosaic Idealize.ShloMosaic.TcCoe Idealize.SL.Sem Idealize.ShloMosaic.ValueIdx

namespace Cert.KernelIdeal.Results

open Cert.KernelIdeal Cert.KernelIdeal.Gen Cert.KernelIdeal.Out Cert.KernelIdeal.Run Cert.KernelIdeal.Chain

variable (m : (ℓ : Loc nD τ sig) → Buf (Elt Ideal) ℓ)

/-- The rating output at edge `e`, class `j`. -/
theorem ratingArr_apply (c : Dev nD) (e : Fin 200000) (j : Fin 5) :
    ratingArr m c (ix2 e j)
      = Spec.ratings (pairTerm (m ((c : Thread nD τ).loc main_arg0)) (m ((c : Thread nD τ).loc main_arg1)) (m ((c : Thread nD τ).loc main_arg10)) (m ((c : Thread nD τ).loc main_arg11)))
          (m ((c : Thread nD τ).loc main_arg4)) (m ((c : Thread nD τ).loc main_arg5)) (m ((c : Thread nD τ).loc main_arg8)) e j := by
  show Spec.ratings (V m c main_v15 : S200000x256.Idx → EReal) (V m c main_arg4 : S256x128.Idx → EReal)
    (V m c main_arg5 : S128x128.Idx → EReal) (V m c main_arg8 : S128x5.Idx → EReal) e j = _
  rw [V_v15 m c, V_main_arg4 m c, V_main_arg5 m c, V_main_arg8 m c]

/-- The mean loss. -/
theorem meanOf_eq (c : Dev nD) :
    meanOf m c
      = Spec.meanLoss (pairTerm (m ((c : Thread nD τ).loc main_arg0)) (m ((c : Thread nD τ).loc main_arg1)) (m ((c : Thread nD τ).loc main_arg10)) (m ((c : Thread nD τ).loc main_arg11)))
          (pairTerm (m ((c : Thread nD τ).loc main_arg2)) (m ((c : Thread nD τ).loc main_arg3)) (m ((c : Thread nD τ).loc main_arg10)) (m ((c : Thread nD τ).loc main_arg11)))
          (m ((c : Thread nD τ).loc main_arg4)) (m ((c : Thread nD τ).loc main_arg5)) (m ((c : Thread nD τ).loc main_arg6)) (m ((c : Thread nD τ).loc main_arg7))
          (poolTerm (m ((c : Thread nD τ).loc main_arg9)) (m ((c : Thread nD τ).loc main_arg12))) (poolTerm (m ((c : Thread nD τ).loc main_arg9)) (m ((c : Thread nD τ).loc main_arg13))) := by
  show Spec.meanLoss (V m c main_v15 : S200000x256.Idx → EReal) (V m c main_v31 : S200000x256.Idx → EReal)
    (V m c main_arg4 : S256x128.Idx → EReal) (V m c main_arg5 : S128x128.Idx → EReal)
    (V m c main_arg6 : S256x128.Idx → EReal) (V m c main_arg7 : S128x128.Idx → EReal)
    (V m c main_v55 : S200000x128.Idx → EReal) (V m c main_v65 : S200000x128.Idx → EReal) = _
  rw [V_v15 m c, V_v31 m c, V_v55 m c, V_v65 m c, V_main_arg4 m c, V_main_arg5 m c, V_main_arg6 m c, V_main_arg7 m c]

end Cert.KernelIdeal.Results

end
-- ==== Proof.RefRun.lean ====
/- The reference program's run: @main of `ReferenceIdeal` is the straight line of its 128 host operations, each
   called function's operations in place of its call over that call's buffer record. Hence (`StableHlo.run_seq`)
   every weakly fair execution of @main terminates without fault, each result buffer ends at the fold
   `StableHlo.after ops` of the operations' results over the launch contents, and each argument buffer, which no
   operation writes, ends as it started. -/
import proofs.«155999_j77077483094304_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- @main's 128 operations, in order, the calls unfolded. `relu(x)` is three (the scalar zero, its broadcast, the
    maximum) into `main_call0`'s buffers and again into `main_call1`'s; `log_sigmoid(x)` is sixteen into
    `main_call2`'s: the negation, then `softplus`'s fourteen into `main_call2.call0`'s (the zero and its three
    broadcasts, `max(x, 0)`, `x - 0`, the self-comparison that detects a NaN, `x + 0`, `|x|`, its negation,
    the exponential, `log1p`, the sum, the select), then the negation of what `softplus` returned. Around them
    @main's own hundred and six. -/
abbrev ops : List (HloOp τ sig (Elt F)) :=
  [ nullary main_c (constantI S_ 32 0#32),
    unary main_c main_v0 (broadcastInDim S200000 ![] bcast_S_S200000 : (⟨S_, .i32⟩ : BufTy).Contents (Elt F) → (⟨S200000, .i32⟩ : BufTy).Contents (Elt F)),
    binary main_arg10 main_v0 main_v1 (cmpi .slt : (⟨S200000, .i32⟩ : BufTy).Contents (Elt F) → (⟨S200000, .i32⟩ : BufTy).Contents (Elt F) → (⟨S200000, .i1⟩ : BufTy).Contents (Elt F)),
    nullary main_c_0 (constantI S_ 32 100000#32),
    unary main_c_0 main_v2 (broadcastInDim S200000 ![] bcast_S_S200000 : (⟨S_, .i32⟩ : BufTy).Contents (Elt F) → (⟨S200000, .i32⟩ : BufTy).Contents (Elt F)),
    binary main_arg10 main_v2 main_v3 (addi : (⟨S200000, .i32⟩ : BufTy).Contents (Elt F) → (⟨S200000, .i32⟩ : BufTy).Contents (Elt F) → (⟨S200000, .i32⟩ : BufTy).Contents (Elt F)),
    ternary main_v1 main_v3 main_arg10 main_v4 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v4 main_v5 (broadcastInDim S200000x1 ![0] bcast_S200000_S200000x1_0 : (⟨S200000, .i32⟩ : BufTy).Contents (Elt F) → (⟨S200000x1, .i32⟩ : BufTy).Contents (Elt F)),
    binary main_arg0 main_v5 main_v6 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_c_1 (constantI S_ 32 0#32),
    unary main_c_1 main_v7 (broadcastInDim S200000 ![] bcast_S_S200000 : (⟨S_, .i32⟩ : BufTy).Contents (Elt F) → (⟨S200000, .i32⟩ : BufTy).Contents (Elt F)),
    binary main_arg11 main_v7 main_v8 (cmpi .slt : (⟨S200000, .i32⟩ : BufTy).Contents (Elt F) → (⟨S200000, .i32⟩ : BufTy).Contents (Elt F) → (⟨S200000, .i1⟩ : BufTy).Contents (Elt F)),
    nullary main_c_2 (constantI S_ 32 50000#32),
    unary main_c_2 main_v9 (broadcastInDim S200000 ![] bcast_S_S200000 : (⟨S_, .i32⟩ : BufTy).Contents (Elt F) → (⟨S200000, .i32⟩ : BufTy).Contents (Elt F)),
    binary main_arg11 main_v9 main_v10 (addi : (⟨S200000, .i32⟩ : BufTy).Contents (Elt F) → (⟨S200000, .i32⟩ : BufTy).Contents (Elt F) → (⟨S200000, .i32⟩ : BufTy).Contents (Elt F)),
    ternary main_v8 main_v10 main_arg11 main_v11 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v11 main_v12 (broadcastInDim S200000x1 ![0] bcast_S200000_S200000x1_0 : (⟨S200000, .i32⟩ : BufTy).Contents (Elt F) → (⟨S200000x1, .i32⟩ : BufTy).Contents (Elt F)),
    binary main_arg1 main_v12 main_v13 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    binary main_v6 main_v13 main_v14 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    binary main_v14 main_arg4 main_v15 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    TRef.nullary main_call0.cst (constant S_ .f32 0x00000000#32),
    TRef.unary main_call0.cst main_call0.v0 (broadcastInDim S200000x128 ![] bcast_S_S200000x128),
    TRef.binary (.of main_v15 : TRef sig ⟨S200000x128, .f32⟩) main_call0.v0 main_call0.v1 maximumf,
    binary main_v16 main_arg5 main_v17 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v17 main_arg8 main_v18 ((fun l r => Host.dotGeneral dot_S200000x128_S128x5_S200000x5_1_0_0_1_n_n none l r) : (⟨S200000x128, .f32⟩ : BufTy).Contents (Elt F) → (⟨S128x5, .f32⟩ : BufTy).Contents (Elt F) → (⟨S200000x5, .f32⟩ : BufTy).Contents (Elt F)),
    nullary main_c_3 (constantI S_ 32 0#32),
    unary main_c_3 main_v19 (broadcastInDim S200000 ![] bcast_S_S200000 : (⟨S_, .i32⟩ : BufTy).Contents (Elt F) → (⟨S200000, .i32⟩ : BufTy).Contents (Elt F)),
    binary main_arg10 main_v19 main_v20 (cmpi .slt : (⟨S200000, .i32⟩ : BufTy).Contents (Elt F) → (⟨S200000, .i32⟩ : BufTy).Contents (Elt F) → (⟨S200000, .i1⟩ : BufTy).Contents (Elt F)),
    nullary main_c_4 (constantI S_ 32 100000#32),
    unary main_c_4 main_v21 (broadcastInDim S200000 ![] bcast_S_S200000 : (⟨S_, .i32⟩ : BufTy).Contents (Elt F) → (⟨S200000, .i32⟩ : BufTy).Contents (Elt F)),
    binary main_arg10 main_v21 main_v22 (addi : (⟨S200000, .i32⟩ : BufTy).Contents (Elt F) → (⟨S200000, .i32⟩ : BufTy).Contents (Elt F) → (⟨S200000, .i32⟩ : BufTy).Contents (Elt F)),
    ternary main_v20 main_v22 main_arg10 main_v23 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v23 main_v24 (broadcastInDim S200000x1 ![0] bcast_S200000_S200000x1_0 : (⟨S200000, .i32⟩ : BufTy).Contents (Elt F) → (⟨S200000x1, .i32⟩ : BufTy).Contents (Elt F)),
    binary main_arg2 main_v24 main_v25 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_c_5 (constantI S_ 32 0#32),
    unary main_c_5 main_v26 (broadcastInDim S200000 ![] bcast_S_S200000 : (⟨S_, .i32⟩ : BufTy).Contents (Elt F) → (⟨S200000, .i32⟩ : BufTy).Contents (Elt F)),
    binary main_arg11 main_v26 main_v27 (cmpi .slt : (⟨S200000, .i32⟩ : BufTy).Contents (Elt F) → (⟨S200000, .i32⟩ : BufTy).Contents (Elt F) → (⟨S200000, .i1⟩ : BufTy).Contents (Elt F)),
    nullary main_c_6 (constantI S_ 32 50000#32),
    unary main_c_6 main_v28 (broadcastInDim S200000 ![] bcast_S_S200000 : (⟨S_, .i32⟩ : BufTy).Contents (Elt F) → (⟨S200000, .i32⟩ : BufTy).Contents (Elt F)),
    binary main_arg11 main_v28 main_v29 (addi : (⟨S200000, .i32⟩ : BufTy).Contents (Elt F) → (⟨S200000, .i32⟩ : BufTy).Contents (Elt F) → (⟨S200000, .i32⟩ : BufTy).Contents (Elt F)),
    ternary main_v27 main_v29 main_arg11 main_v30 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v30 main_v31 (broadcastInDim S200000x1 ![0] bcast_S200000_S200000x1_0 : (⟨S200000, .i32⟩ : BufTy).Contents (Elt F) → (⟨S200000x1, .i32⟩ : BufTy).Contents (Elt F)),
    binary main_arg3 main_v31 main_v32 ((fun x i => Host.gather gather_S50000x128_S200000x1_S200000x128_1_0_n_n_0_1_1128 x i) : (⟨S50000x128, .f32⟩ : BufTy).Contents (Elt F) → (⟨S200000x1, .i32⟩ : BufTy).Contents (Elt F) → (⟨S200000x128, .f32⟩ : BufTy).Contents (Elt F)),
    binary main_v25 main_v32 main_v33 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    binary main_v33 main_arg6 main_v34 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    TRef.nullary main_call1.cst (constant S_ .f32 0x00000000#32),
    TRef.unary main_call1.cst main_call1.v0 (broadcastInDim S200000x128 ![] bcast_S_S200000x128),
    TRef.binary (.of main_v34 : TRef sig ⟨S200000x128, .f32⟩) main_call1.v0 main_call1.v1 maximumf,
    binary main_v35 main_arg7 main_v36 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v36 main_v17 main_v37 (addf : (⟨S200000x128, .f32⟩ : BufTy).Contents (Elt F) → (⟨S200000x128, .f32⟩ : BufTy).Contents (Elt F) → (⟨S200000x128, .f32⟩ : BufTy).Contents (Elt F)),
    nullary main_c_7 (constantI S_ 32 0#32),
    unary main_c_7 main_v38 (broadcastInDim S200000x10 ![] bcast_S_S200000x10 : (⟨S_, .i32⟩ : BufTy).Contents (Elt F) → (⟨S200000x10, .i32⟩ : BufTy).Contents (Elt F)),
    binary main_arg12 main_v38 main_v39 (cmpi .sgt : (⟨S200000x10, .i32⟩ : BufTy).Contents (Elt F) → (⟨S200000x10, .i32⟩ : BufTy).Contents (Elt F) → (⟨S200000x10, .i1⟩ : BufTy).Contents (Elt F)),
    unary main_v39 main_v40 (uitofp .f32 : (⟨S200000x10, .i1⟩ : BufTy).Contents (Elt F) → (⟨S200000x10, .f32⟩ : BufTy).Contents (Elt F)),
    nullary main_cst (constant S_ .f32 0x00000000#32),
    binary main_v40 main_cst main_v41 ((fun x v => Host.reduceAdd x v reducesTo_S200000x10_S200000_d1 h_S_) : (⟨S200000x10, .f32⟩ : BufTy).Contents (Elt F) → (⟨S_, .f32⟩ : BufTy).Contents (Elt F) → (⟨S200000, .f32⟩ : BufTy).Contents (Elt F)),
    unary main_v41 main_v42 (broadcastInDim S200000x1 ![0] bcast_S200000_S200000x1_0 : (⟨S200000, .f32⟩ : BufTy).Contents (Elt F) → (⟨S200000x1, .f32⟩ : BufTy).Contents (Elt F)),
    nullary main_cst_8 (constant S_ .f32 0x3089705F#32),
    unary main_cst_8 main_v43 (broadcastInDim S200000x1 ![] bcast_S_S200000x1 : (⟨S_, .f32⟩ : BufTy).Contents (Elt F) → (⟨S200000x1, .f32⟩ : BufTy).Contents (Elt F)),
    binary main_v42 main_v43 main_v44 (addf : (⟨S200000x1, .f32⟩ : BufTy).Contents (Elt F) → (⟨S200000x1, .f32⟩ : BufTy).Contents (Elt F) → (⟨S200000x1, .f32⟩ : BufTy).Contents (Elt F)),
    nullary main_c_9 (constantI S_ 32 0#32),
    unary main_c_9 main_v45 (broadcastInDim S200000x10 ![] bcast_S_S200000x10 : (⟨S_, .i32⟩ : BufTy).Contents (Elt F) → (⟨S200000x10, .i32⟩ : BufTy).Contents (Elt F)),
    binary main_arg12 main_v45 main_v46 (cmpi .slt : (⟨S200000x10, .i32⟩ : BufTy).Contents (Elt F) → (⟨S200000x10, .i32⟩ : BufTy).Contents (Elt F) → (⟨S200000x10, .i1⟩ : BufTy).Contents (Elt F)),
    nullary main_c_10 (constantI S_ 32 200000#32),
    unary main_c_10 main_v47 (broadcastInDim S200000x10 ![] bcast_S_S200000x10 : (⟨S_, .i32⟩ : BufTy).Contents (Elt F) → (⟨S200000x10, .i32⟩ : BufTy).Contents (Elt F)),
    binary main_arg12 main_v47 main_v48 (addi : (⟨S200000x10, .i32⟩ : BufTy).Contents (Elt F) → (⟨S200000x10, .i32⟩ : BufTy).Contents (Elt F) → (⟨S200000x10, .i32⟩ : BufTy).Contents (Elt F)),
    ternary main_v46 main_v48 main_arg12 main_v49 (select : (⟨S200000x10, .i1⟩ : BufTy).Contents (Elt F) → (⟨S200000x10, .i32⟩ : BufTy).Contents (Elt F) → (⟨S200000x10, .i32⟩ : BufTy).Contents (Elt F) → (⟨S200000x10, .i32⟩ : BufTy).Contents (Elt F)),
    unary main_v49 main_v50 (broadcastInDim S200000x10x1 ![0, 1] bcast_S200000x10_S200000x10x1_0_1 : (⟨S200000x10, .i32⟩ : BufTy).Contents (Elt F) → (⟨S200000x10x1, .i32⟩ : BufTy).Contents (Elt F)),
    binary main_arg9 main_v50 main_v51 ((fun x i => Host.gather gather_S200000x128_S200000x10x1_S200000x10x128_2_0_n_n_0_2_1128 x i) : (⟨S200000x128, .f32⟩ : BufTy).Contents (Elt F) → (⟨S200000x10x1, .i32⟩ : BufTy).Contents (Elt F) → (⟨S200000x10x128, .f32⟩ : BufTy).Contents (Elt F)),
    nullary main_cst_11 (constant S_ .f32 0x00000000#32),
    binary main_v51 main_cst_11 main_v52 ((fun x v => Host.reduceAdd x v reducesTo_S200000x10x128_S200000x128_d1 h_S_) : (⟨S200000x10x128, .f32⟩ : BufTy).Contents (Elt F) → (⟨S_, .f32⟩ : BufTy).Contents (Elt F) → (⟨S200000x128, .f32⟩ : BufTy).Contents (Elt F)),
    unary main_v44 main_v53 (broadcastInDim S200000x128 ![0, 1] bcast_S200000x1_S200000x128_0_1 : (⟨S200000x1, .f32⟩ : BufTy).Contents (Elt F) → (⟨S200000x128, .f32⟩ : BufTy).Contents (Elt F)),
    binary main_v52 main_v53 main_v54 (Host.divf : (⟨S200000x128, .f32⟩ : BufTy).Contents (Elt F) → (⟨S200000x128, .f32⟩ : BufTy).Contents (Elt F) → (⟨S200000x128, .f32⟩ : BufTy).Contents (Elt F)),
    nullary main_c_12 (constantI S_ 32 0#32),
    unary main_c_12 main_v55 (broadcastInDim S200000x10 ![] bcast_S_S200000x10 : (⟨S_, .i32⟩ : BufTy).Contents (Elt F) → (⟨S200000x10, .i32⟩ : BufTy).Contents (Elt F)),
    binary main_arg13 main_v55 main_v56 (cmpi .sgt : (⟨S200000x10, .i32⟩ : BufTy).Contents (Elt F) → (⟨S200000x10, .i32⟩ : BufTy).Contents (Elt F) → (⟨S200000x10, .i1⟩ : BufTy).Contents (Elt F)),
    unary main_v56 main_v57 (uitofp .f32 : (⟨S200000x10, .i1⟩ : BufTy).Contents (Elt F) → (⟨S200000x10, .f32⟩ : BufTy).Contents (Elt F)),
    nullary main_cst_13 (constant S_ .f32 0x00000000#32),
    binary main_v57 main_cst_13 main_v58 ((fun x v => Host.reduceAdd x v reducesTo_S200000x10_S200000_d1 h_S_) : (⟨S200000x10, .f32⟩ : BufTy).Contents (Elt F) → (⟨S_, .f32⟩ : BufTy).Contents (Elt F) → (⟨S200000, .f32⟩ : BufTy).Contents (Elt F)),
    unary main_v58 main_v59 (broadcastInDim S200000x1 ![0] bcast_S200000_S200000x1_0 : (⟨S200000, .f32⟩ : BufTy).Contents (Elt F) → (⟨S200000x1, .f32⟩ : BufTy).Contents (Elt F)),
    nullary main_cst_14 (constant S_ .f32 0x3089705F#32),
    unary main_cst_14 main_v60 (broadcastInDim S200000x1 ![] bcast_S_S200000x1 : (⟨S_, .f32⟩ : BufTy).Contents (Elt F) → (⟨S200000x1, .f32⟩ : BufTy).Contents (Elt F)),
    binary main_v59 main_v60 main_v61 (addf : (⟨S200000x1, .f32⟩ : BufTy).Contents (Elt F) → (⟨S200000x1, .f32⟩ : BufTy).Contents (Elt F) → (⟨S200000x1, .f32⟩ : BufTy).Contents (Elt F)),
    nullary main_c_15 (constantI S_ 32 0#32),
    unary main_c_15 main_v62 (broadcastInDim S200000x10 ![] bcast_S_S200000x10 : (⟨S_, .i32⟩ : BufTy).Contents (Elt F) → (⟨S200000x10, .i32⟩ : BufTy).Contents (Elt F)),
    binary main_arg13 main_v62 main_v63 (cmpi .slt : (⟨S200000x10, .i32⟩ : BufTy).Contents (Elt F) → (⟨S200000x10, .i32⟩ : BufTy).Contents (Elt F) → (⟨S200000x10, .i1⟩ : BufTy).Contents (Elt F)),
    nullary main_c_16 (constantI S_ 32 200000#32),
    unary main_c_16 main_v64 (broadcastInDim S200000x10 ![] bcast_S_S200000x10 : (⟨S_, .i32⟩ : BufTy).Contents (Elt F) → (⟨S200000x10, .i32⟩ : BufTy).Contents (Elt F)),
    binary main_arg13 main_v64 main_v65 (addi : (⟨S200000x10, .i32⟩ : BufTy).Contents (Elt F) → (⟨S200000x10, .i32⟩ : BufTy).Contents (Elt F) → (⟨S200000x10, .i32⟩ : BufTy).Contents (Elt F)),
    ternary main_v63 main_v65 main_arg13 main_v66 (select : (⟨S200000x10, .i1⟩ : BufTy).Contents (Elt F) → (⟨S200000x10, .i32⟩ : BufTy).Contents (Elt F) → (⟨S200000x10, .i32⟩ : BufTy).Contents (Elt F) → (⟨S200000x10, .i32⟩ : BufTy).Contents (Elt F)),
    unary main_v66 main_v67 (broadcastInDim S200000x10x1 ![0, 1] bcast_S200000x10_S200000x10x1_0_1 : (⟨S200000x10, .i32⟩ : BufTy).Contents (Elt F) → (⟨S200000x10x1, .i32⟩ : BufTy).Contents (Elt F)),
    binary main_arg9 main_v67 main_v68 ((fun x i => Host.gather gather_S200000x128_S200000x10x1_S200000x10x128_2_0_n_n_0_2_1128 x i) : (⟨S200000x128, .f32⟩ : BufTy).Contents (Elt F) → (⟨S200000x10x1, .i32⟩ : BufTy).Contents (Elt F) → (⟨S200000x10x128, .f32⟩ : BufTy).Contents (Elt F)),
    nullary main_cst_17 (constant S_ .f32 0x00000000#32),
    binary main_v68 main_cst_17 main_v69 ((fun x v => Host.reduceAdd x v reducesTo_S200000x10x128_S200000x128_d1 h_S_) : (⟨S200000x10x128, .f32⟩ : BufTy).Contents (Elt F) → (⟨S_, .f32⟩ : BufTy).Contents (Elt F) → (⟨S200000x128, .f32⟩ : BufTy).Contents (Elt F)),
    unary main_v61 main_v70 (broadcastInDim S200000x128 ![0, 1] bcast_S200000x1_S200000x128_0_1 : (⟨S200000x1, .f32⟩ : BufTy).Contents (Elt F) → (⟨S200000x128, .f32⟩ : BufTy).Contents (Elt F)),
    binary main_v69 main_v70 main_v71 (Host.divf : (⟨S200000x128, .f32⟩ : BufTy).Contents (Elt F) → (⟨S200000x128, .f32⟩ : BufTy).Contents (Elt F) → (⟨S200000x128, .f32⟩ : BufTy).Contents (Elt F)),
    binary main_v37 main_v54 main_v72 (mulf : (⟨S200000x128, .f32⟩ : BufTy).Contents (Elt F) → (⟨S200000x128, .f32⟩ : BufTy).Contents (Elt F) → (⟨S200000x128, .f32⟩ : BufTy).Contents (Elt F)),
    nullary main_cst_18 (constant S_ .f32 0x00000000#32),
    binary main_v72 main_cst_18 main_v73 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F)),
    binary main_v37 main_v71 main_v74 (mulf : (⟨S200000x128, .f32⟩ : BufTy).Contents (Elt F) → (⟨S200000x128, .f32⟩ : BufTy).Contents (Elt F) → (⟨S200000x128, .f32⟩ : BufTy).Contents (Elt F)),
    nullary main_cst_19 (constant S_ .f32 0x00000000#32),
    binary main_v74 main_cst_19 main_v75 ((fun x v => Host.reduceAdd x v reducesTo_S200000x128_S200000_d1 h_S_) : (⟨S200000x128, .f32⟩ : BufTy).Contents (Elt F) → (⟨S_, .f32⟩ : BufTy).Contents (Elt F) → (⟨S200000, .f32⟩ : BufTy).Contents (Elt F)),
    binary main_v73 main_v75 main_v76 (subf : (⟨S200000, .f32⟩ : BufTy).Contents (Elt F) → (⟨S200000, .f32⟩ : BufTy).Contents (Elt F) → (⟨S200000, .f32⟩ : BufTy).Contents (Elt F)),
    TRef.unary (.of main_v76 : TRef sig ⟨S200000, .f32⟩) main_call2.v0 Host.negf,
    TRef.nullary main_call2.call0.cst (constant S_ .f32 0x00000000#32),
    TRef.unary main_call2.call0.cst main_call2.call0.v0 (broadcastInDim S200000 ![] bcast_S_S200000),
    TRef.binary main_call2.v0 main_call2.call0.v0 main_call2.call0.v1 maximumf,
    TRef.unary main_call2.call0.cst main_call2.call0.v2 (broadcastInDim S200000 ![] bcast_S_S200000),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S200000 ![] bcast_S_S200000),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    unary main_v77 main_v78 (Host.negf : (⟨S200000, .f32⟩ : BufTy).Contents (Elt F) → (⟨S200000, .f32⟩ : BufTy).Contents (Elt F)),
    nullary main_cst_20 (constant S_ .f32 0x00000000#32),
    binary main_v78 main_cst_20 main_v79 ((fun x v => Host.reduceAdd x v reducesTo_S200000_S_d0 h_S_) : (⟨S200000, .f32⟩ : BufTy).Contents (Elt F) → (⟨S_, .f32⟩ : BufTy).Contents (Elt F) → (⟨S_, .f32⟩ : BufTy).Contents (Elt F)),
    nullary main_cst_21 (constant S_ .f32 0x48435000#32),
    binary main_v79 main_cst_21 main_v80 (Host.divf : (⟨S_, .f32⟩ : BufTy).Contents (Elt F) → (⟨S_, .f32⟩ : BufTy).Contents (Elt F) → (⟨S_, .f32⟩ : BufTy).Contents (Elt F)),
    nullary main_cst_22 (constant S_ .f32 0x00000000#32),
    binary main_v78 main_cst_22 main_v81 ((fun x v => Host.reduceAdd x v reducesTo_S200000_S_d0 h_S_) : (⟨S200000, .f32⟩ : BufTy).Contents (Elt F) → (⟨S_, .f32⟩ : BufTy).Contents (Elt F) → (⟨S_, .f32⟩ : BufTy).Contents (Elt F)),
    nullary main_cst_23 (constant S_ .f32 0x48435000#32),
    binary main_v81 main_cst_23 main_v82 (Host.divf : (⟨S_, .f32⟩ : BufTy).Contents (Elt F) → (⟨S_, .f32⟩ : BufTy).Contents (Elt F) → (⟨S_, .f32⟩ : BufTy).Contents (Elt F)) ]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    nullary_bufs_sub .., binary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., binary_bufs_sub .., unary_bufs_sub ..,
    binary_bufs_sub .., nullary_bufs_sub .., unary_bufs_sub .., binary_bufs_sub .., unary_bufs_sub .., nullary_bufs_sub ..,
    binary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., binary_bufs_sub .., unary_bufs_sub .., binary_bufs_sub ..,
    binary_bufs_sub .., nullary_bufs_sub .., binary_bufs_sub .., binary_bufs_sub .., nullary_bufs_sub .., binary_bufs_sub ..,
    binary_bufs_sub .., unary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub .., unary_bufs_sub .., unary_bufs_sub ..,
    nullary_bufs_sub .., binary_bufs_sub .., nullary_bufs_sub .., binary_bufs_sub .., nullary_bufs_sub .., binary_bufs_sub ..,
    nullary_bufs_sub .., binary_bufs_sub ..⟩

set_option maxRecDepth 8192 in
set_option maxHeartbeats 4000000 in
/-- @main is that straight line: its two windows run in order, each called function's definition unfolded at its
    call and each record at its fields, is one chain of `hlo` steps — the same chain `seq` builds from the list. -/
theorem main_eq (c : Dev nD) : main (F := F) c = seq ops := rfl

/-- The buffers the operations write, in order: one per operation, each written once; no argument is among them. -/
abbrev opsW : List (Ref sig .tc) :=
  [main_c, main_v0, main_v1, main_c_0, main_v2, main_v3, main_v4, main_v5,
    main_v6, main_c_1, main_v7, main_v8, main_c_2, main_v9, main_v10, main_v11,
    main_v12, main_v13, main_v14, main_v15, main_call0_cst, main_call0_v0, main_v16, main_v17,
    main_v18, main_c_3, main_v19, main_v20, main_c_4, main_v21, main_v22, main_v23,
    main_v24, main_v25, main_c_5, main_v26, main_v27, main_c_6, main_v28, main_v29,
    main_v30, main_v31, main_v32, main_v33, main_v34, main_call1_cst, main_call1_v0, main_v35,
    main_v36, main_v37, main_c_7, main_v38, main_v39, main_v40, main_cst, main_v41,
    main_v42, main_cst_8, main_v43, main_v44, main_c_9, main_v45, main_v46, main_c_10,
    main_v47, main_v48, main_v49, main_v50, main_v51, main_cst_11, main_v52, main_v53,
    main_v54, main_c_12, main_v55, main_v56, main_v57, main_cst_13, main_v58, main_v59,
    main_cst_14, main_v60, main_v61, main_c_15, main_v62, main_v63, main_c_16, main_v64,
    main_v65, main_v66, main_v67, main_v68, main_cst_17, main_v69, main_v70, main_v71,
    main_v72, main_cst_18, main_v73, main_v74, main_cst_19, main_v75, main_v76, main_call2_v0,
    main_call2_call0_cst, main_call2_call0_v0, main_call2_call0_v1, main_call2_call0_v2, main_call2_call0_v3, main_call2_call0_v4, main_call2_call0_v5, main_call2_call0_v6,
    main_call2_call0_v7, main_call2_call0_v8, main_call2_call0_v9, main_call2_call0_v10, main_call2_call0_v11, main_call2_v1, main_v77, main_v78,
    main_cst_20, main_v79, main_cst_21, main_v80, main_cst_22, main_v81, main_cst_23, main_v82]

/-- An operation that writes exactly the buffer `y` of the list writes inside the list. -/
theorem sub_W {op : HloOp τ sig (Elt F)} (y : Ref sig .tc) (h : op.writes = {Proc.devRef .tc y}) (hy : y ∈ opsW) :
    op.writes ⊆ (opsW.map (Proc.devRef (τ := τ) .tc)).toFinset := by
  rw [h, Finset.singleton_subset_iff, List.mem_toFinset]
  exact List.mem_map_of_mem hy

set_option maxRecDepth 8192 in
set_option maxHeartbeats 4000000 in
/-- Each operation writes its result buffer only, and that buffer is in the list. -/
theorem ops_writes : (ops : List (HloOp τ sig (Elt F))).Forall fun op =>
    op.writes ⊆ (opsW.map (Proc.devRef (τ := τ) .tc)).toFinset :=
  ⟨sub_W main_c rfl (by decide), sub_W main_v0 rfl (by decide), sub_W main_v1 rfl (by decide),
    sub_W main_c_0 rfl (by decide), sub_W main_v2 rfl (by decide), sub_W main_v3 rfl (by decide),
    sub_W main_v4 rfl (by decide), sub_W main_v5 rfl (by decide), sub_W main_v6 rfl (by decide),
    sub_W main_c_1 rfl (by decide), sub_W main_v7 rfl (by decide), sub_W main_v8 rfl (by decide),
    sub_W main_c_2 rfl (by decide), sub_W main_v9 rfl (by decide), sub_W main_v10 rfl (by decide),
    sub_W main_v11 rfl (by decide), sub_W main_v12 rfl (by decide), sub_W main_v13 rfl (by decide),
    sub_W main_v14 rfl (by decide), sub_W main_v15 rfl (by decide), sub_W main_call0_cst rfl (by decide),
    sub_W main_call0_v0 rfl (by decide), sub_W main_v16 rfl (by decide), sub_W main_v17 rfl (by decide),
    sub_W main_v18 rfl (by decide), sub_W main_c_3 rfl (by decide), sub_W main_v19 rfl (by decide),
    sub_W main_v20 rfl (by decide), sub_W main_c_4 rfl (by decide), sub_W main_v21 rfl (by decide),
    sub_W main_v22 rfl (by decide), sub_W main_v23 rfl (by decide), sub_W main_v24 rfl (by decide),
    sub_W main_v25 rfl (by decide), sub_W main_c_5 rfl (by decide), sub_W main_v26 rfl (by decide),
    sub_W main_v27 rfl (by decide), sub_W main_c_6 rfl (by decide), sub_W main_v28 rfl (by decide),
    sub_W main_v29 rfl (by decide), sub_W main_v30 rfl (by decide), sub_W main_v31 rfl (by decide),
    sub_W main_v32 rfl (by decide), sub_W main_v33 rfl (by decide), sub_W main_v34 rfl (by decide),
    sub_W main_call1_cst rfl (by decide), sub_W main_call1_v0 rfl (by decide), sub_W main_v35 rfl (by decide),
    sub_W main_v36 rfl (by decide), sub_W main_v37 rfl (by decide), sub_W main_c_7 rfl (by decide),
    sub_W main_v38 rfl (by decide), sub_W main_v39 rfl (by decide), sub_W main_v40 rfl (by decide),
    sub_W main_cst rfl (by decide), sub_W main_v41 rfl (by decide), sub_W main_v42 rfl (by decide),
    sub_W main_cst_8 rfl (by decide), sub_W main_v43 rfl (by decide), sub_W main_v44 rfl (by decide),
    sub_W main_c_9 rfl (by decide), sub_W main_v45 rfl (by decide), sub_W main_v46 rfl (by decide),
    sub_W main_c_10 rfl (by decide), sub_W main_v47 rfl (by decide), sub_W main_v48 rfl (by decide),
    sub_W main_v49 rfl (by decide), sub_W main_v50 rfl (by decide), sub_W main_v51 rfl (by decide),
    sub_W main_cst_11 rfl (by decide), sub_W main_v52 rfl (by decide), sub_W main_v53 rfl (by decide),
    sub_W main_v54 rfl (by decide), sub_W main_c_12 rfl (by decide), sub_W main_v55 rfl (by decide),
    sub_W main_v56 rfl (by decide), sub_W main_v57 rfl (by decide), sub_W main_cst_13 rfl (by decide),
    sub_W main_v58 rfl (by decide), sub_W main_v59 rfl (by decide), sub_W main_cst_14 rfl (by decide),
    sub_W main_v60 rfl (by decide), sub_W main_v61 rfl (by decide), sub_W main_c_15 rfl (by decide),
    sub_W main_v62 rfl (by decide), sub_W main_v63 rfl (by decide), sub_W main_c_16 rfl (by decide),
    sub_W main_v64 rfl (by decide), sub_W main_v65 rfl (by decide), sub_W main_v66 rfl (by decide),
    sub_W main_v67 rfl (by decide), sub_W main_v68 rfl (by decide), sub_W main_cst_17 rfl (by decide),
    sub_W main_v69 rfl (by decide), sub_W main_v70 rfl (by decide), sub_W main_v71 rfl (by decide),
    sub_W main_v72 rfl (by decide), sub_W main_cst_18 rfl (by decide), sub_W main_v73 rfl (by decide),
    sub_W main_v74 rfl (by decide), sub_W main_cst_19 rfl (by decide), sub_W main_v75 rfl (by decide),
    sub_W main_v76 rfl (by decide), sub_W main_call2_v0 rfl (by decide), sub_W main_call2_call0_cst rfl (by decide),
    sub_W main_call2_call0_v0 rfl (by decide), sub_W main_call2_call0_v1 rfl (by decide), sub_W main_call2_call0_v2 rfl (by decide),
    sub_W main_call2_call0_v3 rfl (by decide), sub_W main_call2_call0_v4 rfl (by decide), sub_W main_call2_call0_v5 rfl (by decide),
    sub_W main_call2_call0_v6 rfl (by decide), sub_W main_call2_call0_v7 rfl (by decide), sub_W main_call2_call0_v8 rfl (by decide),
    sub_W main_call2_call0_v9 rfl (by decide), sub_W main_call2_call0_v10 rfl (by decide), sub_W main_call2_call0_v11 rfl (by decide),
    sub_W main_call2_v1 rfl (by decide), sub_W main_v77 rfl (by decide), sub_W main_v78 rfl (by decide),
    sub_W main_cst_20 rfl (by decide), sub_W main_v79 rfl (by decide), sub_W main_cst_21 rfl (by decide),
    sub_W main_v80 rfl (by decide), sub_W main_cst_22 rfl (by decide), sub_W main_v81 rfl (by decide),
    sub_W main_cst_23 rfl (by decide), sub_W main_v82 rfl (by decide)⟩

/-- An argument buffer is not among the buffers written, so the fold leaves it as it was. -/
theorem after_arg (V : Valuation τ sig (Elt F)) (r : Ref sig .tc) (h : r ∉ opsW) :
    after ops V (Proc.devRef .tc r) = V (Proc.devRef .tc r) :=
  after_of_writes_sub ops V ops_writes h

set_option maxRecDepth 8192 in
set_option maxHeartbeats 4000000 in
/-- On every device, for any float values, from any memory with zero counters: every weakly fair execution of
    @main terminates without fault, with each of the three results at the fold of the operations' results over the
    launch contents (`launchContents m c` is `fun b => m (c, b)`) and each of the fourteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = after ops (launchContents m c) (Proc.devRef .tc main_v18)
      ∧ r.2.mem ((c.tc : Thread nD τ).loc main_v80) = after ops (launchContents m c) (Proc.devRef .tc main_v80)
      ∧ r.2.mem ((c.tc : Thread nD τ).loc main_v82) = after ops (launchContents m c) (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨h c main_v18, h c main_v80, h c main_v82,
      (h c main_arg0).trans (after_arg _ main_arg0 (by decide)),
      (h c main_arg1).trans (after_arg _ main_arg1 (by decide)),
      (h c main_arg2).trans (after_arg _ main_arg2 (by decide)),
      (h c main_arg3).trans (after_arg _ main_arg3 (by decide)),
      (h c main_arg4).trans (after_arg _ main_arg4 (by decide)),
      (h c main_arg5).trans (after_arg _ main_arg5 (by decide)),
      (h c main_arg6).trans (after_arg _ main_arg6 (by decide)),
      (h c main_arg7).trans (after_arg _ main_arg7 (by decide)),
      (h c main_arg8).trans (after_arg _ main_arg8 (by decide)),
      (h c main_arg9).trans (after_arg _ main_arg9 (by decide)),
      (h c main_arg10).trans (after_arg _ main_arg10 (by decide)),
      (h c main_arg11).trans (after_arg _ main_arg11 (by decide)),
      (h c main_arg12).trans (after_arg _ main_arg12 (by decide)),
      (h c main_arg13).trans (after_arg _ main_arg13 (by decide))⟩)
    (run_seq scopedRefs_eq scopedSems_eq defs main (fun _ => ops) main_eq (fun _ => ops_sub) m ρ)

end Cert.ReferenceIdeal.RefRun

end
-- ==== Proof.RefValue.lean ====
/-
  What the reference program's three results are.

  The program gathers, for each of 200000 edges, a row of 256 rating features and a row of 256 topic features (a
  user's 128 entries followed by an item's 128) and two vectors of 128 entries pooled from reviews; these four arrays
  are named here and never read at an entry. From them: the first result is `relu (x · w1r) · w2r · wp`, whose entry
  `(e, j)` is the specification's rating prediction of row `e`; the second and third results are one number, the sum
  over the edges — from the zero word — of minus the logarithm of the logistic function at the difference of the
  edge's two scores, divided by the word of 200000. Each host product is a plain product with one contracted axis, so
  an entry is a finite sum; each host sum over one axis is the initial value, zero, plus a finite sum; every other
  operation acts entry by entry.
-/
import proofs.«155999_j77077483094304_2_alg».proof.Proof.Gen.ReferenceIdeal
import proofs.«155999_j77077483094304_2_alg».proof.Proof.RefRun
import proofs.«155999_j77077483094304_2_alg».proof.Proof.Spec
import proofs.«155999_j77077483094304_2_alg».proof.Proof.LibPlainDot
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen Cert.Spec

/-! ## The three products' dimension numbers: which coordinate each operand index reads -/

abbrev E1 := dot_S200000x256_S256x128_S200000x128_1_0_0_1_n_n
abbrev E2 := dot_S200000x128_S128x128_S200000x128_1_0_0_1_n_n
abbrev E3 := dot_S200000x128_S128x5_S200000x5_1_0_0_1_n_n

theorem E1_l0 (j : S200000x128.Idx) (q : E1.contr.Idx) : (E1.lhsIdx j q 0).val = (j 0).val := by
  unfold DotDims.lhsIdx
  rw [dif_neg (show ¬(0 : Fin S200000x256.rank) ∈ E1.lhsBatch by decide),
    dif_pos (show (0 : Fin S200000x256.rank) ∈ E1.lhsNonContracting by decide)]
  rfl
theorem E1_l1 (j : S200000x128.Idx) (q : E1.contr.Idx) : (E1.lhsIdx j q 1).val = (q ⟨0, by decide⟩).val :=
  E1.lhsIdx_val_of_single rfl j q
theorem E1_r0 (j : S200000x128.Idx) (q : E1.contr.Idx) : (E1.rhsIdx j q 0).val = (q ⟨0, by decide⟩).val :=
  E1.rhsIdx_val_of_single rfl j q
theorem E1_r1 (j : S200000x128.Idx) (q : E1.contr.Idx) : (E1.rhsIdx j q 1).val = (j 1).val := by
  unfold DotDims.rhsIdx
  rw [dif_neg (show ¬(1 : Fin S256x128.rank) ∈ E1.rhsBatch by decide),
    dif_pos (show (1 : Fin S256x128.rank) ∈ E1.rhsNonContracting by decide)]
  rfl

theorem E2_l0 (j : S200000x128.Idx) (q : E2.contr.Idx) : (E2.lhsIdx j q 0).val = (j 0).val := by
  unfold DotDims.lhsIdx
  rw [dif_neg (show ¬(0 : Fin S200000x128.rank) ∈ E2.lhsBatch by decide),
    dif_pos (show (0 : Fin S200000x128.rank) ∈ E2.lhsNonContracting by decide)]
  rfl
theorem E2_l1 (j : S200000x128.Idx) (q : E2.contr.Idx) : (E2.lhsIdx j q 1).val = (q ⟨0, by decide⟩).val :=
  E2.lhsIdx_val_of_single rfl j q
theorem E2_r0 (j : S200000x128.Idx) (q : E2.contr.Idx) : (E2.rhsIdx j q 0).val = (q ⟨0, by decide⟩).val :=
  E2.rhsIdx_val_of_single rfl j q
theorem E2_r1 (j : S200000x128.Idx) (q : E2.contr.Idx) : (E2.rhsIdx j q 1).val = (j 1).val := by
  unfold DotDims.rhsIdx
  rw [dif_neg (show ¬(1 : Fin S128x128.rank) ∈ E2.rhsBatch by decide),
    dif_pos (show (1 : Fin S128x128.rank) ∈ E2.rhsNonContracting by decide)]
  rfl

theorem E3_l0 (j : S200000x5.Idx) (q : E3.contr.Idx) : (E3.lhsIdx j q 0).val = (j 0).val := by
  unfold DotDims.lhsIdx
  rw [dif_neg (show ¬(0 : Fin S200000x128.rank) ∈ E3.lhsBatch by decide),
    dif_pos (show (0 : Fin S200000x128.rank) ∈ E3.lhsNonContracting by decide)]
  rfl
theorem E3_l1 (j : S200000x5.Idx) (q : E3.contr.Idx) : (E3.lhsIdx j q 1).val = (q ⟨0, by decide⟩).val :=
  E3.lhsIdx_val_of_single rfl j q
theorem E3_r0 (j : S200000x5.Idx) (q : E3.contr.Idx) : (E3.rhsIdx j q 0).val = (q ⟨0, by decide⟩).val :=
  E3.rhsIdx_val_of_single rfl j q
theorem E3_r1 (j : S200000x5.Idx) (q : E3.contr.Idx) : (E3.rhsIdx j q 1).val = (j 1).val := by
  unfold DotDims.rhsIdx
  rw [dif_neg (show ¬(1 : Fin S128x5.rank) ∈ E3.rhsBatch by decide),
    dif_pos (show (1 : Fin S128x5.rank) ∈ E3.rhsNonContracting by decide)]
  rfl

/-! ## Each product at an entry -/

theorem dot1 (l : FVec Ideal S200000x256 .f32) (w : FVec Ideal S256x128 .f32) (r : Fin 200000) (c : Fin 128) :
    Host.dotGeneral (F := Ideal) E1 none l w (ix2 r c) = ∑ k : Fin 256, l (ix2 r k) * w (ix2 k c) :=
  (Ideal.dotGeneral_apply E1 none .single l w (ix2 r c)).trans
    (plain_dot_sum E1 rfl rfl E1_l0 E1_l1 E1_r0 E1_r1 l w r c)

theorem dot2 (l : FVec Ideal S200000x128 .f32) (w : FVec Ideal S128x128 .f32) (r : Fin 200000) (c : Fin 128) :
    Host.dotGeneral (F := Ideal) E2 none l w (ix2 r c) = ∑ k : Fin 128, l (ix2 r k) * w (ix2 k c) :=
  (Ideal.dotGeneral_apply E2 none .single l w (ix2 r c)).trans
    (plain_dot_sum E2 rfl rfl E2_l0 E2_l1 E2_r0 E2_r1 l w r c)

theorem dot3 (l : FVec Ideal S200000x128 .f32) (w : FVec Ideal S128x5 .f32) (r : Fin 200000) (c : Fin 5) :
    Host.dotGeneral (F := Ideal) E3 none l w (ix2 r c) = ∑ k : Fin 128, l (ix2 r k) * w (ix2 k c) :=
  (Ideal.dotGeneral_apply E3 none .single l w (ix2 r c)).trans
    (plain_dot_sum E3 rfl rfl E3_l0 E3_l1 E3_r0 E3_r1 l w r c)

/-! ## The results as terms of the four gathered arrays and the weights -/

/-- `relu (x · w1) · w2` over all rows, as the program forms it: the product, the maximum with the broadcast zero
    word, the second product. -/
def hiddenTerm (x : FVec Ideal S200000x256 .f32) (w1 : FVec Ideal S256x128 .f32) (w2 : FVec Ideal S128x128 .f32) :
    FVec Ideal S200000x128 .f32 :=
  Host.dotGeneral (F := Ideal) E2 none
    (maximumf (Host.dotGeneral (F := Ideal) E1 none x w1)
      (broadcastInDim S200000x128 ![] bcast_S_S200000x128 (constant (F := Ideal) S_ .f32 0x00000000#32))) w2

/-- The first result: the rating perceptron's output times `wp`. -/
def ratingsTerm (x : FVec Ideal S200000x256 .f32) (w1r : FVec Ideal S256x128 .f32) (w2r : FVec Ideal S128x128 .f32)
    (wp : FVec Ideal S128x5 .f32) : FVec Ideal S200000x5 .f32 :=
  Host.dotGeneral (F := Ideal) E3 none (hiddenTerm x w1r w2r) wp

/-- The zero word at every edge. -/
def zeroVec : FVec Ideal S200000 .f32 :=
  broadcastInDim S200000 ![] bcast_S_S200000 (constant (F := Ideal) S_ .f32 0x00000000#32)

/-- `softplus` as the program spells it: a self-comparison guards the branch `a + 0`; the other branch is
    `max a 0 + log1p (exp (-|a - 0|))`. -/
def softplusTerm (a : FVec Ideal S200000 .f32) : FVec Ideal S200000 .f32 :=
  select (cmpf .une (subf a zeroVec) (subf a zeroVec)) (addf a zeroVec)
    (addf (maximumf a zeroVec) (Host.log1p (Host.exp (Host.negf (Host.absf (subf a zeroVec))))))

/-- Minus the logarithm of the logistic function, entry by entry: `-(-(softplus (-d)))`. -/
def nlsTerm (d : FVec Ideal S200000 .f32) : FVec Ideal S200000 .f32 :=
  Host.negf (Host.negf (softplusTerm (Host.negf d)))

/-- The sum of each row over its 128 columns, from the zero word. -/
def rowSumTerm (y : FVec Ideal S200000x128 .f32) : FVec Ideal S200000 .f32 :=
  Host.reduceAdd (F := Ideal) y (constant (F := Ideal) S_ .f32 0x00000000#32) reducesTo_S200000x128_S200000_d1 h_S_

/-- The second and third results from the topic vectors `th` and the two pooled review arrays: the two scores (row
    sums of the entrywise products), the loss of their difference at every edge, its sum from the zero word, divided
    by the word of 200000. -/
def lossTail (th p n : FVec Ideal S200000x128 .f32) : FVec Ideal S_ .f32 :=
  Host.divf (F := Ideal)
    (Host.reduceAdd (F := Ideal) (nlsTerm (subf (rowSumTerm (mulf th p)) (rowSumTerm (mulf th n))))
      (constant (F := Ideal) S_ .f32 0x00000000#32) reducesTo_S200000_S_d0 h_S_)
    (constant (F := Ideal) S_ .f32 0x48435000#32)

/-- The second and third results: the topic vectors are the topic perceptron's output plus the rating perceptron's. -/
def lossTerm (x t : FVec Ideal S200000x256 .f32) (w1r : FVec Ideal S256x128 .f32) (w2r : FVec Ideal S128x128 .f32)
    (w1t : FVec Ideal S256x128 .f32) (w2t : FVec Ideal S128x128 .f32) (p n : FVec Ideal S200000x128 .f32) :
    FVec Ideal S_ .f32 :=
  lossTail (addf (hiddenTerm t w1t w2t) (hiddenTerm x w1r w2r)) p n

/-! ## The terms at an entry -/

/-- An index of a one-axis array is its one coordinate. -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Row `e`, column `k` of `relu (x · w1) · w2`: the specification's `hidden` of row `e` of `x`. -/
theorem hiddenTerm_apply (x : FVec Ideal S200000x256 .f32) (w1 : FVec Ideal S256x128 .f32) (w2 : FVec Ideal S128x128 .f32)
    (e : Fin 200000) (k : Fin 128) : hiddenTerm x w1 w2 (ix2 e k) = Spec.hidden (Spec.row x e) w1 w2 k := by
  unfold hiddenTerm Spec.hidden
  refine (dot2 _ _ e k).trans (Finset.sum_congr rfl fun l _ => ?_)
  show max (Host.dotGeneral (F := Ideal) E1 none x w1 (ix2 e l)) (Ideal.ofBits .f32 0x00000000#32) * w2 (ix2 l k) = _
  rw [dot1, Ideal.ofBits_zero_f32]
  rfl

/-- The first result at edge `e`, class `j`. -/
theorem ratingsTerm_apply (x : FVec Ideal S200000x256 .f32) (w1r : FVec Ideal S256x128 .f32) (w2r : FVec Ideal S128x128 .f32)
    (wp : FVec Ideal S128x5 .f32) (e : Fin 200000) (j : Fin 5) :
    ratingsTerm x w1r w2r wp (ix2 e j) = Spec.ratings x w1r w2r wp e j := by
  unfold ratingsTerm Spec.ratings Spec.rating
  refine (dot3 _ _ e j).trans (Finset.sum_congr rfl fun k _ => ?_)
  rw [hiddenTerm_apply]

/-- The sum of row `e` over its 128 columns. -/
theorem rowSumTerm_apply (y : FVec Ideal S200000x128 .f32) (e : Fin 200000) :
    rowSumTerm y (ix1 e) = ∑ d : Fin 128, y (ix2 e d) := by
  show Ideal.hostReduceAdd reducesTo_S200000x128_S200000_d1 y (Ideal.ofBits .f32 0x00000000#32) (ix1 e) = _
  rw [Ideal.hostReduceAdd_single reducesTo_S200000x128_S200000_d1 (by decide : S200000x128.Reduces [1] S200000),
    Ideal.ofBits_zero_f32, zero_add]
  refine Finset.sum_congr rfl fun d _ => congrArg y ?_
  funext a; apply Fin.ext
  match a with
  | ⟨0, _⟩ => rfl
  | ⟨1, _⟩ => rfl

/-- The program's chain at an edge is the specification's `nls` of the entry. -/
theorem nlsTerm_apply (d : FVec Ideal S200000 .f32) (e : Fin 200000) : nlsTerm d (ix1 e) = Spec.nls (d (ix1 e)) :=
  Spec.nls_of_neg_chain (d (ix1 e))

/-- The second and third results, at their one entry. -/
theorem lossTerm_apply (x t : FVec Ideal S200000x256 .f32) (w1r : FVec Ideal S256x128 .f32) (w2r : FVec Ideal S128x128 .f32)
    (w1t : FVec Ideal S256x128 .f32) (w2t : FVec Ideal S128x128 .f32) (p n : FVec Ideal S200000x128 .f32) :
    lossTerm x t w1r w2r w1t w2t p n ix0 = Spec.meanLoss x t w1r w2r w1t w2t p n := by
  unfold lossTerm lossTail Spec.meanLoss
  show Ideal.div (Ideal.hostReduceAdd reducesTo_S200000_S_d0 _ (Ideal.ofBits .f32 0x00000000#32) ix0)
    (Ideal.ofBits .f32 0x48435000#32) = _
  rw [Ideal.hostReduceAdd_total reducesTo_S200000_S_d0 (fun b => b.elim0), sum_idx1]
  refine congrArg (fun s => Ideal.div (Ideal.ofBits .f32 0x00000000#32 + s) (Ideal.ofBits .f32 0x48435000#32))
    (Finset.sum_congr rfl fun e _ => ?_)
  rw [nlsTerm_apply]
  unfold Spec.lossAt Spec.edgeLoss
  refine congrArg Spec.nls ?_
  show rowSumTerm _ (ix1 e) - rowSumTerm _ (ix1 e) = _
  rw [rowSumTerm_apply, rowSumTerm_apply]
  unfold Spec.score
  refine congrArg₂ (· - ·) (Finset.sum_congr rfl fun d _ => ?_) (Finset.sum_congr rfl fun d _ => ?_)
  · show (hiddenTerm t w1t w2t (ix2 e d) + hiddenTerm x w1r w2r (ix2 e d)) * p (ix2 e d) = _
    rw [hiddenTerm_apply, hiddenTerm_apply]; rfl
  · show (hiddenTerm t w1t w2t (ix2 e d) + hiddenTerm x w1r w2r (ix2 e d)) * n (ix2 e d) = _
    rw [hiddenTerm_apply, hiddenTerm_apply]; rfl

/-! ## The four arrays gathered on the host, as terms of the argument arrays -/

/-- The rating features: each edge's user row and item row, gathered at the edge's two indices (a negative index
    counted from the end) and laid side by side. -/
def rfTerm (a0 : FVec Ideal S100000x128 .f32) (a1 : FVec Ideal S50000x128 .f32) (a10 a11 : IVec S200000 32) :
    FVec Ideal S200000x256 .f32 :=
  concatenate S200000x256 1 [⟨S200000x128, (Host.gather gather_S100000x128_S200000x1_S200000x128_1_0_n_n_0_1_1128 a0 (broadcastInDim S200000x1 ![0] bcast_S200000_S200000x1_0 (select (cmpi .slt a10 (broadcastInDim S200000 ![] bcast_S_S200000 (constantI S_ 32 0#32))) (addi a10 (broadcastInDim S200000 ![] bcast_S_S200000 (constantI S_ 32 100000#32))) a10)))⟩, ⟨S200000x128, (Host.gather gather_S50000x128_S200000x1_S200000x128_1_0_n_n_0_1_1128 a1 (broadcastInDim S200000x1 ![0] bcast_S200000_S200000x1_0 (select (cmpi .slt a11 (broadcastInDim S200000 ![] bcast_S_S200000 (constantI S_ 32 0#32))) (addi a11 (broadcastInDim S200000 ![] bcast_S_S200000 (constantI S_ 32 50000#32))) a11)))⟩] concatenates_S200000x128_S200000x128_S200000x256_d1

/-- The topic features: the same gathering from the topic tables. -/
def tfTerm (a2 : FVec Ideal S100000x128 .f32) (a3 : FVec Ideal S50000x128 .f32) (a10 a11 : IVec S200000 32) :
    FVec Ideal S200000x256 .f32 :=
  concatenate S200000x256 1 [⟨S200000x128, (Host.gather gather_S100000x128_S200000x1_S200000x128_1_0_n_n_0_1_1128 a2 (broadcastInDim S200000x1 ![0] bcast_S200000_S200000x1_0 (select (cmpi .slt a10 (broadcastInDim S200000 ![] bcast_S_S200000 (constantI S_ 32 0#32))) (addi a10 (broadcastInDim S200000 ![] bcast_S_S200000 (constantI S_ 32 100000#32))) a10)))⟩, ⟨S200000x128, (Host.gather gather_S50000x128_S200000x1_S200000x128_1_0_n_n_0_1_1128 a3 (broadcastInDim S200000x1 ![0] bcast_S200000_S200000x1_0 (select (cmpi .slt a11 (broadcastInDim S200000 ![] bcast_S_S200000 (constantI S_ 32 0#32))) (addi a11 (broadcastInDim S200000 ![] bcast_S_S200000 (constantI S_ 32 50000#32))) a11)))⟩] concatenates_S200000x128_S200000x128_S200000x256_d1

/-- The first pooled review array: for each edge the sum of the ten review rows gathered at its indices, divided by
    the number of positive indices plus a small constant. -/
def posrTerm (a9 : FVec Ideal S200000x128 .f32) (a12 : IVec S200000x10 32) : FVec Ideal S200000x128 .f32 :=
  Host.divf (F := Ideal) (Host.reduceAdd (F := Ideal) (Host.gather gather_S200000x128_S200000x10x1_S200000x10x128_2_0_n_n_0_2_1128 a9 (broadcastInDim S200000x10x1 ![0, 1] bcast_S200000x10_S200000x10x1_0_1 (select (cmpi .slt a12 (broadcastInDim S200000x10 ![] bcast_S_S200000x10 (constantI S_ 32 0#32))) (addi a12 (broadcastInDim S200000x10 ![] bcast_S_S200000x10 (constantI S_ 32 200000#32))) a12))) (constant (F := Ideal) S_ .f32 0x00000000#32) reducesTo_S200000x10x128_S200000x128_d1 h_S_) (broadcastInDim S200000x128 ![0, 1] bcast_S200000x1_S200000x128_0_1 (addf (broadcastInDim S200000x1 ![0] bcast_S200000_S200000x1_0 (Host.reduceAdd (F := Ideal) (uitofp .f32 (cmpi .sgt a12 (broadcastInDim S200000x10 ![] bcast_S_S200000x10 (constantI S_ 32 0#32)))) (constant (F := Ideal) S_ .f32 0x00000000#32) reducesTo_S200000x10_S200000_d1 h_S_)) (broadcastInDim S200000x1 ![] bcast_S_S200000x1 (constant (F := Ideal) S_ .f32 0x3089705F#32))))

/-- The second pooled review array: the same from the second index table. -/
def negrTerm (a9 : FVec Ideal S200000x128 .f32) (a13 : IVec S200000x10 32) : FVec Ideal S200000x128 .f32 :=
  Host.divf (F := Ideal) (Host.reduceAdd (F := Ideal) (Host.gather gather_S200000x128_S200000x10x1_S200000x10x128_2_0_n_n_0_2_1128 a9 (broadcastInDim S200000x10x1 ![0, 1] bcast_S200000x10_S200000x10x1_0_1 (select (cmpi .slt a13 (broadcastInDim S200000x10 ![] bcast_S_S200000x10 (constantI S_ 32 0#32))) (addi a13 (broadcastInDim S200000x10 ![] bcast_S_S200000x10 (constantI S_ 32 200000#32))) a13))) (constant (F := Ideal) S_ .f32 0x00000000#32) reducesTo_S200000x10x128_S200000x128_d1 h_S_) (broadcastInDim S200000x128 ![0, 1] bcast_S200000x1_S200000x128_0_1 (addf (broadcastInDim S200000x1 ![0] bcast_S200000_S200000x1_0 (Host.reduceAdd (F := Ideal) (uitofp .f32 (cmpi .sgt a13 (broadcastInDim S200000x10 ![] bcast_S_S200000x10 (constantI S_ 32 0#32)))) (constant (F := Ideal) S_ .f32 0x00000000#32) reducesTo_S200000x10_S200000_d1 h_S_)) (broadcastInDim S200000x1 ![] bcast_S_S200000x1 (constant (F := Ideal) S_ .f32 0x3089705F#32))))

open Idealize.ShloMosaic.StableHlo Idealize.ShloMosaic.TcCoe Idealize.SL.Sem

/-! ## The run's results

The last 32 operations — the two score sums, the loss chain and the two means — read three buffers of what comes before
them: the topic vectors and the two pooled review arrays. So the results are read in two steps: those three buffers
after the whole line, and the last two results after the tail from ANY contents of the device. -/

set_option maxHeartbeats 4000000 in
/-- The last 32 operations of the line, `main_v72` to `main_v82`. -/
abbrev tailOps : List (HloOp τ sig (Elt Ideal)) :=
  [ binary main_v37 main_v54 main_v72 (mulf (F := Ideal) (φ := .f32) : (⟨S200000x128, .f32⟩ : BufTy).Contents (Elt Ideal) → (⟨S200000x128, .f32⟩ : BufTy).Contents (Elt Ideal) → (⟨S200000x128, .f32⟩ : BufTy).Contents (Elt Ideal)),
    nullary main_cst_18 (constant (F := Ideal) S_ .f32 0x00000000#32),
    binary main_v72 main_cst_18 main_v73 ((fun x v => Host.reduceAdd (F := Ideal) (φ := .f32) x v reducesTo_S200000x128_S200000_d1 h_S_) : (⟨S200000x128, .f32⟩ : BufTy).Contents (Elt Ideal) → (⟨S_, .f32⟩ : BufTy).Contents (Elt Ideal) → (⟨S200000, .f32⟩ : BufTy).Contents (Elt Ideal)),
    binary main_v37 main_v71 main_v74 (mulf (F := Ideal) (φ := .f32) : (⟨S200000x128, .f32⟩ : BufTy).Contents (Elt Ideal) → (⟨S200000x128, .f32⟩ : BufTy).Contents (Elt Ideal) → (⟨S200000x128, .f32⟩ : BufTy).Contents (Elt Ideal)),
    nullary main_cst_19 (constant (F := Ideal) S_ .f32 0x00000000#32),
    binary main_v74 main_cst_19 main_v75 ((fun x v => Host.reduceAdd (F := Ideal) (φ := .f32) x v reducesTo_S200000x128_S200000_d1 h_S_) : (⟨S200000x128, .f32⟩ : BufTy).Contents (Elt Ideal) → (⟨S_, .f32⟩ : BufTy).Contents (Elt Ideal) → (⟨S200000, .f32⟩ : BufTy).Contents (Elt Ideal)),
    binary main_v73 main_v75 main_v76 (subf (F := Ideal) (φ := .f32) : (⟨S200000, .f32⟩ : BufTy).Contents (Elt Ideal) → (⟨S200000, .f32⟩ : BufTy).Contents (Elt Ideal) → (⟨S200000, .f32⟩ : BufTy).Contents (Elt Ideal)),
    TRef.unary (.of main_v76 : TRef sig ⟨S200000, .f32⟩) main_call2.v0 (Host.negf (F := Ideal) (φ := .f32)),
    TRef.nullary main_call2.call0.cst (constant (F := Ideal) S_ .f32 0x00000000#32),
    TRef.unary main_call2.call0.cst main_call2.call0.v0 (broadcastInDim S200000 ![] bcast_S_S200000),
    TRef.binary main_call2.v0 main_call2.call0.v0 main_call2.call0.v1 (maximumf (F := Ideal) (φ := .f32)),
    TRef.unary main_call2.call0.cst main_call2.call0.v2 (broadcastInDim S200000 ![] bcast_S_S200000),
    TRef.binary main_call2.v0 main_call2.call0.v2 main_call2.call0.v3 (subf (F := Ideal) (φ := .f32)),
    TRef.binary main_call2.call0.v3 main_call2.call0.v3 main_call2.call0.v4 (cmpf (F := Ideal) (φ := .f32) .une),
    TRef.unary main_call2.call0.cst main_call2.call0.v5 (broadcastInDim S200000 ![] bcast_S_S200000),
    TRef.binary main_call2.v0 main_call2.call0.v5 main_call2.call0.v6 (addf (F := Ideal) (φ := .f32)),
    TRef.unary main_call2.call0.v3 main_call2.call0.v7 (Host.absf (F := Ideal) (φ := .f32)),
    TRef.unary main_call2.call0.v7 main_call2.call0.v8 (Host.negf (F := Ideal) (φ := .f32)),
    TRef.unary main_call2.call0.v8 main_call2.call0.v9 (Host.exp (F := Ideal) (φ := .f32)),
    TRef.unary main_call2.call0.v9 main_call2.call0.v10 (Host.log1p (F := Ideal) (φ := .f32)),
    TRef.binary main_call2.call0.v1 main_call2.call0.v10 main_call2.call0.v11 (addf (F := Ideal) (φ := .f32)),
    TRef.ternary main_call2.call0.v4 main_call2.call0.v6 main_call2.call0.v11 main_call2.call0.v12 select,
    TRef.unary main_call2.call0.v12 main_call2.v2 (Host.negf (F := Ideal) (φ := .f32)),
    unary main_v77 main_v78 (Host.negf (F := Ideal) (φ := .f32) : (⟨S200000, .f32⟩ : BufTy).Contents (Elt Ideal) → (⟨S200000, .f32⟩ : BufTy).Contents (Elt Ideal)),
    nullary main_cst_20 (constant (F := Ideal) S_ .f32 0x00000000#32),
    binary main_v78 main_cst_20 main_v79 ((fun x v => Host.reduceAdd (F := Ideal) (φ := .f32) x v reducesTo_S200000_S_d0 h_S_) : (⟨S200000, .f32⟩ : BufTy).Contents (Elt Ideal) → (⟨S_, .f32⟩ : BufTy).Contents (Elt Ideal) → (⟨S_, .f32⟩ : BufTy).Contents (Elt Ideal)),
    nullary main_cst_21 (constant (F := Ideal) S_ .f32 0x48435000#32),
    binary main_v79 main_cst_21 main_v80 (Host.divf (F := Ideal) (φ := .f32) : (⟨S_, .f32⟩ : BufTy).Contents (Elt Ideal) → (⟨S_, .f32⟩ : BufTy).Contents (Elt Ideal) → (⟨S_, .f32⟩ : BufTy).Contents (Elt Ideal)),
    nullary main_cst_22 (constant (F := Ideal) S_ .f32 0x00000000#32),
    binary main_v78 main_cst_22 main_v81 ((fun x v => Host.reduceAdd (F := Ideal) (φ := .f32) x v reducesTo_S200000_S_d0 h_S_) : (⟨S200000, .f32⟩ : BufTy).Contents (Elt Ideal) → (⟨S_, .f32⟩ : BufTy).Contents (Elt Ideal) → (⟨S_, .f32⟩ : BufTy).Contents (Elt Ideal)),
    nullary main_cst_23 (constant (F := Ideal) S_ .f32 0x48435000#32),
    binary main_v81 main_cst_23 main_v82 (Host.divf (F := Ideal) (φ := .f32) : (⟨S_, .f32⟩ : BufTy).Contents (Elt Ideal) → (⟨S_, .f32⟩ : BufTy).Contents (Elt Ideal) → (⟨S_, .f32⟩ : BufTy).Contents (Elt Ideal)) ]

/-- The fold over two lines run one after the other is the second's fold over the first's. -/
theorem after_append' : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_append' l₁ l₂]

set_option maxRecDepth 8192 in
/-- The line is its first 96 operations followed by the tail. -/
theorem ops_split : RefRun.ops (F := Ideal) = (RefRun.ops (F := Ideal)).take 96 ++ tailOps :=
  (List.take_append_drop 96 _).symm

/-- So the fold over the line is the tail's fold over the head's. -/
theorem after_split (V : Valuation τ sig (Elt Ideal)) :
    after (RefRun.ops (F := Ideal)) V = after tailOps (after ((RefRun.ops (F := Ideal)).take 96) V) :=
  (congrArg (fun l => after l V) ops_split).trans (after_append' _ _ V)

set_option maxRecDepth 8192 in
set_option maxHeartbeats 4000000 in
/-- The tail writes none of the three buffers it reads from the head. -/
theorem tail_keep (W : Valuation τ sig (Elt Ideal)) :
    after tailOps W (Proc.devRef .tc main_v37) = W (Proc.devRef .tc main_v37)
    ∧ after tailOps W (Proc.devRef .tc main_v54) = W (Proc.devRef .tc main_v54)
    ∧ after tailOps W (Proc.devRef .tc main_v71) = W (Proc.devRef .tc main_v71) := by
  refine ⟨?_, ?_, ?_⟩ <;>
    simp (disch := decide) only [after_cons, after_nil, nullary_result', unary_result', binary_result', ternary_result',
    nullary_result_ne', unary_result_ne', binary_result_ne', ternary_result_ne']

set_option maxRecDepth 8192 in
set_option maxHeartbeats 4000000 in
/-- The second result after the tail, from any contents. -/
theorem tail_v80 (W : Valuation τ sig (Elt Ideal)) :
    after tailOps W (Proc.devRef .tc main_v80) = lossTail (W (Proc.devRef .tc main_v37)) (W (Proc.devRef .tc main_v54)) (W (Proc.devRef .tc main_v71)) := by
  simp (disch := decide) only [after_cons, after_nil, nullary_result', unary_result', binary_result', ternary_result',
    nullary_result_ne', unary_result_ne', binary_result_ne', ternary_result_ne']
  unfold lossTail nlsTerm softplusTerm rowSumTerm zeroVec
  simp only [TRef.ofBuf, TRef.toBuf, cast_eq]

set_option maxRecDepth 8192 in
set_option maxHeartbeats 4000000 in
/-- The third result after the tail, from any contents: the same term. -/
theorem tail_v82 (W : Valuation τ sig (Elt Ideal)) :
    after tailOps W (Proc.devRef .tc main_v82) = lossTail (W (Proc.devRef .tc main_v37)) (W (Proc.devRef .tc main_v54)) (W (Proc.devRef .tc main_v71)) := by
  simp (disch := decide) only [after_cons, after_nil, nullary_result', unary_result', binary_result', ternary_result',
    nullary_result_ne', unary_result_ne', binary_result_ne', ternary_result_ne']
  unfold lossTail nlsTerm softplusTerm rowSumTerm zeroVec
  simp only [TRef.ofBuf, TRef.toBuf, cast_eq]

set_option maxRecDepth 8192 in
set_option maxHeartbeats 4000000 in
/-- The first result after the whole line. -/
theorem after_v18 (V : Valuation τ sig (Elt Ideal)) :
    after (RefRun.ops (F := Ideal)) V (Proc.devRef .tc main_v18)
      = ratingsTerm (rfTerm (V (Proc.devRef .tc main_arg0)) (V (Proc.devRef .tc main_arg1)) (V (Proc.devRef .tc main_arg10)) (V (Proc.devRef .tc main_arg11)))
          (V (Proc.devRef .tc main_arg4)) (V (Proc.devRef .tc main_arg5)) (V (Proc.devRef .tc main_arg8)) := by
  simp (disch := decide) only [after_cons, after_nil, nullary_result', unary_result', binary_result', ternary_result',
    nullary_result_ne', unary_result_ne', binary_result_ne', ternary_result_ne']
  rfl

set_option maxRecDepth 8192 in
set_option maxHeartbeats 4000000 in
/-- The topic vectors after the whole line. -/
theorem after_v37 (V : Valuation τ sig (Elt Ideal)) :
    after (RefRun.ops (F := Ideal)) V (Proc.devRef .tc main_v37)
      = addf (hiddenTerm (tfTerm (V (Proc.devRef .tc main_arg2)) (V (Proc.devRef .tc main_arg3)) (V (Proc.devRef .tc main_arg10)) (V (Proc.devRef .tc main_arg11))) (V (Proc.devRef .tc main_arg6)) (V (Proc.devRef .tc main_arg7)))
          (hiddenTerm (rfTerm (V (Proc.devRef .tc main_arg0)) (V (Proc.devRef .tc main_arg1)) (V (Proc.devRef .tc main_arg10)) (V (Proc.devRef .tc main_arg11))) (V (Proc.devRef .tc main_arg4)) (V (Proc.devRef .tc main_arg5))) := by
  simp (disch := decide) only [after_cons, after_nil, nullary_result', unary_result', binary_result', ternary_result',
    nullary_result_ne', unary_result_ne', binary_result_ne', ternary_result_ne']
  rfl

set_option maxRecDepth 8192 in
set_option maxHeartbeats 4000000 in
/-- The first pooled review array after the whole line. -/
theorem after_v54 (V : Valuation τ sig (Elt Ideal)) :
    after (RefRun.ops (F := Ideal)) V (Proc.devRef .tc main_v54) = posrTerm (V (Proc.devRef .tc main_arg9)) (V (Proc.devRef .tc main_arg12)) := by
  simp (disch := decide) only [after_cons, after_nil, nullary_result', unary_result', binary_result', ternary_result',
    nullary_result_ne', unary_result_ne', binary_result_ne', ternary_result_ne']
  rfl

set_option maxRecDepth 8192 in
set_option maxHeartbeats 4000000 in
/-- The second pooled review array after the whole line. -/
theorem after_v71 (V : Valuation τ sig (Elt Ideal)) :
    after (RefRun.ops (F := Ideal)) V (Proc.devRef .tc main_v71) = negrTerm (V (Proc.devRef .tc main_arg9)) (V (Proc.devRef .tc main_arg13)) := by
  simp (disch := decide) only [after_cons, after_nil, nullary_result', unary_result', binary_result', ternary_result',
    nullary_result_ne', unary_result_ne', binary_result_ne', ternary_result_ne']
  rfl

/-- What the head leaves in the three buffers the tail reads: what the whole line leaves there. -/
theorem head_vals (V : Valuation τ sig (Elt Ideal)) :
    (after ((RefRun.ops (F := Ideal)).take 96) V) (Proc.devRef .tc main_v37)
        = addf (hiddenTerm (tfTerm (V (Proc.devRef .tc main_arg2)) (V (Proc.devRef .tc main_arg3)) (V (Proc.devRef .tc main_arg10)) (V (Proc.devRef .tc main_arg11))) (V (Proc.devRef .tc main_arg6)) (V (Proc.devRef .tc main_arg7)))
            (hiddenTerm (rfTerm (V (Proc.devRef .tc main_arg0)) (V (Proc.devRef .tc main_arg1)) (V (Proc.devRef .tc main_arg10)) (V (Proc.devRef .tc main_arg11))) (V (Proc.devRef .tc main_arg4)) (V (Proc.devRef .tc main_arg5)))
    ∧ (after ((RefRun.ops (F := Ideal)).take 96) V) (Proc.devRef .tc main_v54) = posrTerm (V (Proc.devRef .tc main_arg9)) (V (Proc.devRef .tc main_arg12))
    ∧ (after ((RefRun.ops (F := Ideal)).take 96) V) (Proc.devRef .tc main_v71) = negrTerm (V (Proc.devRef .tc main_arg9)) (V (Proc.devRef .tc main_arg13)) :=
  ⟨((tail_keep _).1.symm.trans (congrFun (after_split V).symm _)).trans (after_v37 V),
    ((tail_keep _).2.1.symm.trans (congrFun (after_split V).symm _)).trans (after_v54 V),
    ((tail_keep _).2.2.symm.trans (congrFun (after_split V).symm _)).trans (after_v71 V)⟩

/-- The second result after the whole line. -/
theorem after_v80 (V : Valuation τ sig (Elt Ideal)) :
    after (RefRun.ops (F := Ideal)) V (Proc.devRef .tc main_v80)
      = lossTerm (rfTerm (V (Proc.devRef .tc main_arg0)) (V (Proc.devRef .tc main_arg1)) (V (Proc.devRef .tc main_arg10)) (V (Proc.devRef .tc main_arg11)))
          (tfTerm (V (Proc.devRef .tc main_arg2)) (V (Proc.devRef .tc main_arg3)) (V (Proc.devRef .tc main_arg10)) (V (Proc.devRef .tc main_arg11)))
          (V (Proc.devRef .tc main_arg4)) (V (Proc.devRef .tc main_arg5)) (V (Proc.devRef .tc main_arg6)) (V (Proc.devRef .tc main_arg7))
          (posrTerm (V (Proc.devRef .tc main_arg9)) (V (Proc.devRef .tc main_arg12))) (negrTerm (V (Proc.devRef .tc main_arg9)) (V (Proc.devRef .tc main_arg13))) := by
  refine (congrFun (after_split V) _).trans ((tail_v80 _).trans ?_)
  rw [(head_vals V).1, (head_vals V).2.1, (head_vals V).2.2]
  rfl

/-- The third result after the whole line. -/
theorem after_v82 (V : Valuation τ sig (Elt Ideal)) :
    after (RefRun.ops (F := Ideal)) V (Proc.devRef .tc main_v82)
      = lossTerm (rfTerm (V (Proc.devRef .tc main_arg0)) (V (Proc.devRef .tc main_arg1)) (V (Proc.devRef .tc main_arg10)) (V (Proc.devRef .tc main_arg11)))
          (tfTerm (V (Proc.devRef .tc main_arg2)) (V (Proc.devRef .tc main_arg3)) (V (Proc.devRef .tc main_arg10)) (V (Proc.devRef .tc main_arg11)))
          (V (Proc.devRef .tc main_arg4)) (V (Proc.devRef .tc main_arg5)) (V (Proc.devRef .tc main_arg6)) (V (Proc.devRef .tc main_arg7))
          (posrTerm (V (Proc.devRef .tc main_arg9)) (V (Proc.devRef .tc main_arg12))) (negrTerm (V (Proc.devRef .tc main_arg9)) (V (Proc.devRef .tc main_arg13))) := by
  refine (congrFun (after_split V) _).trans ((tail_v82 _).trans ?_)
  rw [(head_vals V).1, (head_vals V).2.1, (head_vals V).2.2]
  rfl

/-! ### From the launch memory -/

/-- The first result of a run from the memory `m` on device `c`. -/
theorem res_ratings (m : (ℓ : Loc nD τ sig) → Buf (Elt Ideal) ℓ) (c : Dev nD) :
    after (RefRun.ops (F := Ideal)) (launchContents m c) (Proc.devRef .tc main_v18)
      = ratingsTerm (rfTerm (m ((c.tc : Thread nD τ).loc main_arg0) : S100000x128.Idx → EReal) (m ((c.tc : Thread nD τ).loc main_arg1) : S50000x128.Idx → EReal)
            (m ((c.tc : Thread nD τ).loc main_arg10) : S200000.Idx → BitVec 32) (m ((c.tc : Thread nD τ).loc main_arg11) : S200000.Idx → BitVec 32))
          (m ((c.tc : Thread nD τ).loc main_arg4) : S256x128.Idx → EReal) (m ((c.tc : Thread nD τ).loc main_arg5) : S128x128.Idx → EReal) (m ((c.tc : Thread nD τ).loc main_arg8) : S128x5.Idx → EReal) :=
  after_v18 (launchContents m c)

/-- The second result of a run from the memory `m` on device `c`. -/
theorem res_loss1 (m : (ℓ : Loc nD τ sig) → Buf (Elt Ideal) ℓ) (c : Dev nD) :
    after (RefRun.ops (F := Ideal)) (launchContents m c) (Proc.devRef .tc main_v80)
      = lossTerm (rfTerm (m ((c.tc : Thread nD τ).loc main_arg0) : S100000x128.Idx → EReal) (m ((c.tc : Thread nD τ).loc main_arg1) : S50000x128.Idx → EReal)
            (m ((c.tc : Thread nD τ).loc main_arg10) : S200000.Idx → BitVec 32) (m ((c.tc : Thread nD τ).loc main_arg11) : S200000.Idx → BitVec 32))
          (tfTerm (m ((c.tc : Thread nD τ).loc main_arg2) : S100000x128.Idx → EReal) (m ((c.tc : Thread nD τ).loc main_arg3) : S50000x128.Idx → EReal)
            (m ((c.tc : Thread nD τ).loc main_arg10) : S200000.Idx → BitVec 32) (m ((c.tc : Thread nD τ).loc main_arg11) : S200000.Idx → BitVec 32))
          (m ((c.tc : Thread nD τ).loc main_arg4) : S256x128.Idx → EReal) (m ((c.tc : Thread nD τ).loc main_arg5) : S128x128.Idx → EReal)
          (m ((c.tc : Thread nD τ).loc main_arg6) : S256x128.Idx → EReal) (m ((c.tc : Thread nD τ).loc main_arg7) : S128x128.Idx → EReal)
          (posrTerm (m ((c.tc : Thread nD τ).loc main_arg9) : S200000x128.Idx → EReal) (m ((c.tc : Thread nD τ).loc main_arg12) : S200000x10.Idx → BitVec 32))
          (negrTerm (m ((c.tc : Thread nD τ).loc main_arg9) : S200000x128.Idx → EReal) (m ((c.tc : Thread nD τ).loc main_arg13) : S200000x10.Idx → BitVec 32)) :=
  after_v80 (launchContents m c)

/-- The third result of a run from the memory `m` on device `c`. -/
theorem res_loss2 (m : (ℓ : Loc nD τ sig) → Buf (Elt Ideal) ℓ) (c : Dev nD) :
    after (RefRun.ops (F := Ideal)) (launchContents m c) (Proc.devRef .tc main_v82)
      = lossTerm (rfTerm (m ((c.tc : Thread nD τ).loc main_arg0) : S100000x128.Idx → EReal) (m ((c.tc : Thread nD τ).loc main_arg1) : S50000x128.Idx → EReal)
            (m ((c.tc : Thread nD τ).loc main_arg10) : S200000.Idx → BitVec 32) (m ((c.tc : Thread nD τ).loc main_arg11) : S200000.Idx → BitVec 32))
          (tfTerm (m ((c.tc : Thread nD τ).loc main_arg2) : S100000x128.Idx → EReal) (m ((c.tc : Thread nD τ).loc main_arg3) : S50000x128.Idx → EReal)
            (m ((c.tc : Thread nD τ).loc main_arg10) : S200000.Idx → BitVec 32) (m ((c.tc : Thread nD τ).loc main_arg11) : S200000.Idx → BitVec 32))
          (m ((c.tc : Thread nD τ).loc main_arg4) : S256x128.Idx → EReal) (m ((c.tc : Thread nD τ).loc main_arg5) : S128x128.Idx → EReal)
          (m ((c.tc : Thread nD τ).loc main_arg6) : S256x128.Idx → EReal) (m ((c.tc : Thread nD τ).loc main_arg7) : S128x128.Idx → EReal)
          (posrTerm (m ((c.tc : Thread nD τ).loc main_arg9) : S200000x128.Idx → EReal) (m ((c.tc : Thread nD τ).loc main_arg12) : S200000x10.Idx → BitVec 32))
          (negrTerm (m ((c.tc : Thread nD τ).loc main_arg9) : S200000x128.Idx → EReal) (m ((c.tc : Thread nD τ).loc main_arg13) : S200000x10.Idx → BitVec 32)) :=
  after_v82 (launchContents m c)

end Cert.ReferenceIdeal.RefValue

end
-- ==== Proof.lean ====
/-
  The certificate of an edge-scoring kernel against its reference, over the extended reals.

  For each of 200000 edges both programs gather the source user's and the destination item's feature rows, run two
  two-layer perceptrons on them, predict a rating from the first, add the two outputs into a topic vector, score it
  against two pooled review vectors, and take minus the logarithm of the logistic function at the difference of the
  scores; the results are the rating predictions and, twice, the mean of the losses. The kernel does the gathering and
  pooling on the host, the perceptrons and the scoring in a region that sweeps the edges in a hundred blocks of 2000,
  leaving one partial sum of losses per block, and the mean of the hundred partial sums on the host again; the
  reference does everything on the host over whole arrays.

  At exact arithmetic the two agree: a change of float format is the identity; a matrix product into a zero
  accumulator and the host's product are the same finite sum; zero minus a number is its negation; the test for a
  missing value answers no on both sides; and the hundred partial sums add up to the sum over all edges, because a sum
  over 100 * 2000 positions is the sum over the blocks of the sums over each block, in the commutative monoid of the
  extended reals. No step needs an entry to be finite, so the precondition is never opened. The word-level kernel's
  idealization rewrote no operation, so that conjunct is the true proposition.
-/
import proofs.«155999_j77077483094304_2_alg».proof.Defs
import proofs.«155999_j77077483094304_2_alg».proof.Proof.Gen.Kernel
import proofs.«155999_j77077483094304_2_alg».proof.Proof.Gen.Kernel.Skeleton
import proofs.«155999_j77077483094304_2_alg».proof.Proof.Gen.Kernel.Launch
import proofs.«155999_j77077483094304_2_alg».proof.Proof.Gen.Kernel.Points
import proofs.«155999_j77077483094304_2_alg».proof.Proof.Gen.Kernel.Frame
import proofs.«155999_j77077483094304_2_alg».proof.Proof.Gen.KernelIdeal
import proofs.«155999_j77077483094304_2_alg».proof.Proof.Gen.KernelIdeal.Skeleton
import proofs.«155999_j77077483094304_2_alg».proof.Proof.Gen.KernelIdeal.Launch
import proofs.«155999_j77077483094304_2_alg».proof.Proof.Gen.KernelIdeal.Points
import proofs.«155999_j77077483094304_2_alg».proof.Proof.Gen.KernelIdeal.Frame
import proofs.«155999_j77077483094304_2_alg».proof.Proof.Gen.ReferenceIdeal
import proofs.«155999_j77077483094304_2_alg».proof.Proof.Gen.Pre_finite_inputs
import proofs.«155999_j77077483094304_2_alg».proof.Proof.KernelValue
import proofs.«155999_j77077483094304_2_alg».proof.Proof.RefRun
import proofs.«155999_j77077483094304_2_alg».proof.Proof.RefValue
import Idealize.ShloMosaic.Adequacy
import Idealize.ShloMosaic.Init

set_option maxRecDepth 16384

noncomputable section

namespace Cert.Proof

open Idealize.ShloMosaic Idealize.SL.Sem Idealize.ShloMosaic.ValueIdx

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the results dropped. -/
theorem frame_referenceIdeal : Cert.frame_ReferenceIdeal := fun m ρ _ =>
  (θ_run Cert.ReferenceIdeal.defs _ _).mono (fun _ h c => (h c).2.2.2)
    (Cert.ReferenceIdeal.RefRun.run (F := Ideal) m ρ)

/-- The idealization rewrote no operation. -/
theorem preserves : Cert.preserves_Kernel_KernelIdeal := trivial

set_option maxHeartbeats 4000000 in
/-- From memories that agree on the arguments both programs end with the rating of every edge and, twice, the mean loss:
    the kernel's run and the reference's run are read as the same functions of the same gathered and pooled arrays. -/
theorem algebraic : Cert.algebraic_KernelIdeal_ReferenceIdeal := by
  intro m ρ m' ρ' _ hagree
  refine ⟨fun c => Cert.KernelIdeal.Out.ratingArr m c, fun c => (fun _ => Cert.KernelIdeal.Run.meanOf m c),
    fun c => (fun _ => Cert.KernelIdeal.Run.meanOf m c), ?_, ?_⟩
  · exact (θ_run Cert.KernelIdeal.defs _ _).mono (fun _ h c => ⟨(h c).1, (h c).2.1, (h c).2.1, (h c).2.2⟩)
      (Cert.KernelIdeal.Run.run m ρ)
  · refine (θ_run Cert.ReferenceIdeal.defs _ _).mono (fun _ h c => ?_)
      (Cert.ReferenceIdeal.RefRun.run (F := Ideal) m' ρ')
    obtain ⟨a0, a1, a2, a3, a4, a5, a6, a7, a8, a9, a10, a11, a12, a13⟩ := hagree c
    refine ⟨(h c).1.trans ?_, (h c).2.1.trans ?_, (h c).2.2.1.trans ?_, (h c).2.2.2⟩
    · show _ = Cert.KernelIdeal.Out.ratingArr m c
      rw [Cert.ReferenceIdeal.RefValue.res_ratings]
      funext i
      obtain ⟨e, j, rfl⟩ : ∃ (e : Fin 200000) (j : Fin 5), i = ix2 e j := ⟨i 0, i 1, eq_ix2 i⟩
      rw [Cert.ReferenceIdeal.RefValue.ratingsTerm_apply, Cert.KernelIdeal.Results.ratingArr_apply,
        a0, a1, a10, a11, a4, a5, a8]
      rfl
    · rw [Cert.ReferenceIdeal.RefValue.res_loss1]
      funext i
      show _ = Cert.KernelIdeal.Run.meanOf m c
      rw [eq_ix0 i, Cert.ReferenceIdeal.RefValue.lossTerm_apply, Cert.KernelIdeal.Results.meanOf_eq,
        a0, a1, a2, a3, a4, a5, a6, a7, a9, a10, a11, a12, a13]
      rfl
    · rw [Cert.ReferenceIdeal.RefValue.res_loss2]
      funext i
      show _ = Cert.KernelIdeal.Run.meanOf m c
      rw [eq_ix0 i, Cert.ReferenceIdeal.RefValue.lossTerm_apply, Cert.KernelIdeal.Results.meanOf_eq,
        a0, a1, a2, a3, a4, a5, a6, a7, a9, a10, a11, a12, a13]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
